-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8x16x8192 : S_.BroadcastsInDim S8x16x8192 (![] : Fin 0 → Fin S8x16x8192.rank)
  reducesTo_S8x16x8192_S_d0_1_2 : S8x16x8192.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S8192x8192 .f32) (main_arg5 : FVec F S4096x8192 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  main_v28

def fn {F : FTy → Type} [FloatOps F] (main_arg0 : FVec F S16x8192 .f32) (main_arg1 : FVec F S16x8192 .f32) (main_arg2 : FVec F S8x16x8192 .f32) (main_arg3 : FVec F S16x4096 .f32) (main_arg4 : FVec F S8192x8192 .f32) (main_arg5 : FVec F S4096x8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S16x8192 .f32 := Host.absf main_arg1
  let main_cst_0 : FVec F S_ .f32 := constant S_ .f32 0x7F800000#32
  let main_v5 : FVec F S16x8192 .f32 := broadcastInDim S16x8192 ![] bcast_S_S16x8192 main_cst_0
  let main_v6 : IVec S16x8192 1 := cmpf .olt main_v4 main_v5
  let main_c_1 : IVec S_ 1 := constantI S_ 1 1#1
  let main_v7 : IVec S_ 1 := (fun x v => Host.reduce IntOp.andi x v reducesTo_S16x8192_S_d0_1 h_S_) main_v6 main_c_1
  let main_v8 : IVec S_ 1 := andi main_v3 main_v7
  let main_v9 : FVec F S8x16x8192 .f32 := Host.absf main_arg2
  let main_cst_2 : FVec F S_ .f32 := constant S_ .f32 0x7F800000#32
  let main_v10 : FVec F S8x16x8192 .f32 := broadcastInDim S8x16x8192 ![] bcast_S_S8x16x8192 main_cst_2
  let main_v11 : IVec S8x16x8192 1 := cmpf .olt main_v9 main_v10
  let main_c_3 : IVec S_ 1 := constantI S_ 1 1#1
  let main_v12 : IVec S_ 1 := (fun x v => Host.reduce IntOp.andi x v reducesTo_S8x16x8192_S_d0_1_2 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩
abbrev S1x16x2048 : Shape := ⟨3, ![1, 16, 2048]⟩
abbrev S2048x1024 : Shape := ⟨2, ![2048, 1024]⟩
abbrev S16x2048 : Shape := ⟨2, ![16, 2048]⟩
abbrev S16x1024 : Shape := ⟨2, ![16, 1024]⟩
abbrev S8x16x1024 : Shape := ⟨3, ![8, 16, 1024]⟩
abbrev S1x16x1024 : Shape := ⟨3, ![1, 16, 1024]⟩
abbrev S7x16x1024 : Shape := ⟨3, ![7, 16, 1024]⟩

abbrev nBuf : Space → Nat
  | .hbm => 10
  | .vmem => 23
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S8x16x8192, .f32⟩
  | .hbm, ⟨3, _⟩ => ⟨S16x4096, .f32⟩
  | .hbm, ⟨4, _⟩ => ⟨S8192x8192, .f32⟩
  | .hbm, ⟨5, _⟩ => ⟨S4096x8192, .f32⟩
  | .hbm, ⟨6, _⟩ => ⟨S16x8192, .f32⟩
  | .hbm, ⟨7, _⟩ => ⟨S16x8192, .f32⟩
  | .hbm, ⟨8, _⟩ => ⟨S16x8192, .f32⟩
  | .hbm, ⟨9, _⟩ => ⟨S8x16x8192, .f32⟩
  | .local _ .vmem, ⟨0, _⟩ => ⟨S1x16x2048, .f32⟩
  | .local _ .vmem, ⟨1, _⟩ => ⟨S1x16x2048, .f32⟩
  | .local _ .vmem, ⟨2, _⟩ => ⟨S2048x1024, .f32⟩
  | .local _ .vmem, ⟨3, _⟩ => ⟨S2048x1024, .f32⟩
  | .local _ .vmem, ⟨4, _⟩ => ⟨S16x2048, .f32⟩
  | .local _ .vmem, ⟨5, _⟩ => ⟨S16x2048, .f32⟩
  | .local _ .vmem, ⟨6, _⟩ => ⟨S2048x1024, .f32⟩
  | .local _ .vmem, ⟨7, _⟩ => ⟨S2048x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S8x16x1024, .f32⟩
  | .local _ .vmem, ⟨13, _⟩ => ⟨S8x16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S8x16x1024, .f32⟩
  | .local _ .vmem, ⟨21, _⟩ => ⟨S8x16x1024, .f32⟩
  | .local _ .vmem, ⟨22, _⟩ => ⟨S16x1024, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 6], ![false, false]⟩

def k0_cond4 (i : grid0.Coords) : BitVec 1 :=
  let arg1 : BitVec 32 := BitVec.ofNat 32 (i 1).val
  let c5_i32 : BitVec 32 := 5#32
  let v9 : BitVec 1 := Scalar.cmpi .eq arg1 c5_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c7_i32 : BitVec 32 := 7#32
  let c0_i32 : BitVec 32 := 0#32
  let c0_i32_0 : BitVec 32 := 0#32
  ![c7_i32.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S2048x1024_S2048x1024_0_0 : ∀ a, (![0, 0] : Fin 2 → Nat) a + S2048x1024.size a ≤ S2048x1024.size a
  h_S2048x1024 : 0 < S2048x1024.numel
  inb_S16x2048_S16x2048_0_0 : ∀ a, (![0, 0] : Fin 2 → Nat) a + S16x2048.size a ≤ S16x2048.size a
  h_S16x2048 : 0 < S16x2048.numel
  natLt_1_32 : 1 < 32
  inb_S8x16x1024_S1x16x1024_0_0_0 : ∀ a, (![0, 0, 0] : Fin 3 → Nat) a + S1x16x1024.size a ≤ S8x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  inb_S8x16x1024_S7x16x1024_0_0_0 : ∀ a, (![0, 0, 0] : Fin 3 → Nat) a + S7x16x1024.size a ≤ S8x16x1024.size a
  h_S7x16x1024 : 0 < S7x16x1024.numel
  inb_S8x16x1024_S7x16x1024_1_0_0 : ∀ a, (![1, 0, 0] : Fin 3 → Nat) a + S7x16x1024.size a ≤ S8x16x1024.size a
  dot_S16x2048_S2048x1024_S16x1024_1_0_0_1_n_n_wf : DotDims.WF S16x2048 S2048x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x2048.size a ≤ S8x16x8192.size a
  hwx0_0 : ∀ i : grid0.Coords, EltTy.bits .f32 = 32 ∨ (Rect.block (s := S8x16x8192) S1x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x4096.size a
  hwx0_2 : ∀ i : grid0.Coords, EltTy.bits .f32 = 32 ∨ (Rect.block (s := S16x4096) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x8192.size a
  hwx0_3 : ∀ i : grid0.Coords, EltTy.bits .f32 = 32 ∨ (Rect.block (s := S4096x8192) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x8192.size a
  hwx0_4 : ∀ i : grid0.Coords, EltTy.bits .f32 = 32 ∨ (Rect.block (s := S16x8192) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x8192.size a
  hwx0_5 : ∀ i : grid0.Coords, EltTy.bits .f32 = 32 ∨ (Rect.block (s := S16x8192) S16x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x16x1024.size a ≤ S8x16x8192.size a
  hwx0_6 : ∀ i : grid0.Coords, EltTy.bits .f32 = 32 ∨ (Rect.block (s := S8x16x8192) S8x16x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1024.size a ≤ S16x8192.size a
  hwx0_7 : ∀ i : grid0.Coords, EltTy.bits .f32 = 32 ∨ (Rect.block (s := S16x8192) S16x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x1024.size a ≤ S16x8192.size a
  hwx0_8 : ∀ i : grid0.Coords, EltTy.bits .f32 = 32 ∨ (Rect.block (s := S16x8192) S16x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x1024.size a ≤ S16x8192.size a
  hwx0_9 : ∀ i : grid0.Coords, EltTy.bits .f32 = 32 ∨ (Rect.block (s := S16x8192) S16x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x16x1024.size a ≤ S8x16x8192.size a
  hwx0_10 : ∀ i : grid0.Coords, EltTy.bits .f32 = 32 ∨ (Rect.block (s := S8x16x8192) S8x16x1024.size (cc0_transform_10 i) (hinb0_10 i)).WholeWords (EltTy.packing .f32)

variable [Facts₀]

def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf

abbrev win0_0 : Pipeline.Window sig grid0 :=
  Pipeline.Window.ofSpec (Memref.whole main_arg2) S1x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S16x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S8x16x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S16x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S16x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S16x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S8x16x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun i => !(k0_cond4 i == 1#1) | 8 => fun i => !(k0_cond4 i == 1#1) | 9 => fun i => !(k0_cond4 i == 1#1) | 10 => fun i => !(k0_cond4 i == 1#1) | ⟨_ + 11, h⟩ => absurd h (Nat.not_lt.2 (Nat.le_add_left _ _))

class Facts : Prop extends Facts₀ where

variable [Facts]
-- ==== ReferenceIdeal.lean ====
abbrev S16x8192 : Shape := ⟨2, ![16, 8192]⟩
abbrev S8x16x8192 : Shape := ⟨3, ![8, 16, 8192]⟩
abbrev S16x4096 : Shape := ⟨2, ![16, 4096]⟩
abbrev S8192x8192 : Shape := ⟨2, ![8192, 8192]⟩
abbrev S4096x8192 : Shape := ⟨2, ![4096, 8192]⟩
abbrev S_ : Shape := ⟨0, ![]⟩
abbrev S1x16x8192 : Shape := ⟨3, ![1, 16, 8192]⟩
abbrev S7x16x8192 : Shape := ⟨3, ![7, 16, 8192]⟩

abbrev nBuf : Space → Nat
  | .hbm => 37
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S8x16x8192, .f32⟩
  | .hbm, ⟨3, _⟩ => ⟨S16x4096, .f32⟩
  | .hbm, ⟨4, _⟩ => ⟨S8192x8192, .f32⟩
  | .hbm, ⟨5, _⟩ => ⟨S4096x8192, .f32⟩
  | .hbm, ⟨6, _⟩ => ⟨S_, .f32⟩
  | .hbm, ⟨7, _⟩ => ⟨S16x8192, .f32⟩
  | .hbm, ⟨8, _⟩ => ⟨S16x8192, .f32⟩
  | .hbm, ⟨9, _⟩ => ⟨S_, .f32⟩
  | .hbm, ⟨10, _⟩ => ⟨S16x8192, .f32⟩
  | .hbm, ⟨11, _⟩ => ⟨S16x8192, .f32⟩
  | .hbm, ⟨12, _⟩ => ⟨S16x8192, .i1⟩
  | .hbm, ⟨13, _⟩ => ⟨S16x8192, .f32⟩
  | .hbm, ⟨14, _⟩ => ⟨S_, .f32⟩
  | .hbm, ⟨15, _⟩ => ⟨S16x8192, .f32⟩
  | .hbm, ⟨16, _⟩ => ⟨S16x8192, .f32⟩
  | .hbm, ⟨17, _⟩ => ⟨S16x8192, .f32⟩
  | .hbm, ⟨18, _⟩ => ⟨S1x16x8192, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S16x8192, .f32⟩
  | .hbm, ⟨23, _⟩ => ⟨S_, .f32⟩
  | .hbm, ⟨24, _⟩ => ⟨S16x8192, .f32⟩
  | .hbm, ⟨25, _⟩ => ⟨S16x8192, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S16x8192, .f32⟩
  | .hbm, ⟨30, _⟩ => ⟨S_, .f32⟩
  | .hbm, ⟨31, _⟩ => ⟨S16x8192, .f32⟩
  | .hbm, ⟨32, _⟩ => ⟨S16x8192, .f32⟩
  | .hbm, ⟨33, _⟩ => ⟨S16x8192, .f32⟩
  | .hbm, ⟨34, _⟩ => ⟨S1x16x8192, .f32⟩
  | .hbm, ⟨35, _⟩ => ⟨S7x16x8192, .f32⟩
  | .hbm, ⟨36, _⟩ => ⟨S8x16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S16x8192 : S_.BroadcastsInDim S16x8192 (![] : Fin 0 → Fin S16x8192.rank)
  slices_S8x16x8192_S1x16x8192_7_0_0 : S8x16x8192.Slices ![7, 0, 0] S1x16x8192
  shapeCasts_S1x16x8192_S16x8192 : S1x16x8192.ShapeCasts S16x8192
  bcast_S16x8192_S1x16x8192_1_2 : S16x8192.BroadcastsInDim S1x16x8192 (![1, 2] : Fin 2 → Fin S1x16x8192.rank)
  slices_S8x16x8192_S7x16x8192_0_0_0 : S8x16x8192.Slices ![0, 0, 0] S7x16x8192
  concatenates_S1x16x8192_S7x16x8192_S8x16x8192_d0 : Shape.Concatenates [S1x16x8192, S7x16x8192] S8x16x8192 0
  dot_S16x8192_S8192x8192_S16x8192_1_0_0_1_n_n_wf : DotDims.WF S16x8192 S8192x8192 S16x8192 [1] [0] [0] [1] [] []
  dot_S16x4096_S4096x8192_S16x8192_1_0_0_1_n_n_wf : DotDims.WF S16x4096 S4096x8192 S16x8192 [1] [0] [0] [1] [] []

variable [Facts₀]

def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf
def dot_S16x4096_S4096x8192_S16x8192_1_0_0_1_n_n : DotDims S16x4096 S4096x8192 S16x8192 where
  lhsContracting := [1]
  rhsContracting := [0]
  lhsNonContracting := [0]
  rhsNonContracting := [1]
  lhsBatch := []
  rhsBatch := []
  wf := dot_S16x4096_S4096x8192_S16x8192_1_0_0_1_n_n_wf

class Facts : Prop extends Facts₀ where

variable [Facts]
-- ==== Proof.Word.Cases.lean ====
/-
  The grid is 8 column tiles by 6 reduction steps; a point t has column tile t / 6 and step t % 6.
  The body branches four times on the step: step 0 clears the accumulator; steps 0..3 add the product of
  a block of the last delay row with a block of the recurrent weights; steps 4..5 add the product of a block
  of the external spikes with a block of the external weights; step 5 also computes the spikes, the new
  adaptation, the new membrane potential and the shifted delay buffer and stores them.
  Here: the four conditions in closed form over the 48 points, where the four result windows are idle
  and where they are written back, and names for the staging memrefs the body is called with.
-/
import proofs.«106548_j23527830848088_2_alg».proof.Proof.Gen.Kernel.Launch
import proofs.«106548_j23527830848088_2_alg».proof.Proof.Gen.Kernel.Skeleton
import proofs.«106548_j23527830848088_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- The step is the first one (the accumulator is cleared). -/
abbrev isFirst (i : grid0.Coords) : Prop := (Scalar.cmpi .ne (Scalar.extui (Scalar.cmpi .eq (BitVec.ofNat 32 (i 1).val) 0#32)) 0#32) = 1#1
/-- The step contracts a block of the recurrent weights (steps 0..3). -/
abbrev isRecurrent (i : grid0.Coords) : Prop := (Scalar.cmpi .ne (Scalar.extui (Scalar.cmpi .slt (BitVec.ofNat 32 (i 1).val) 4#32)) 0#32) = 1#1
/-- The step contracts a block of the external weights (steps 4..5). -/
abbrev isExternal (i : grid0.Coords) : Prop := (Scalar.cmpi .ne (Scalar.extui (Scalar.cmpi .sge (BitVec.ofNat 32 (i 1).val) 4#32)) 0#32) = 1#1
/-- The step is the last one (the results are computed and stored). -/
abbrev isLast (i : grid0.Coords) : Prop := k0_cond4 i = 1#1

theorem isFirst_iff : ∀ t : Fin cfg0.N, isFirst (grid0.coords t) ↔ t.val % 6 = 0 :=
  (by decide +kernel : ∀ t : Fin grid0.N, isFirst (grid0.coords t) ↔ t.val % 6 = 0)
theorem isRecurrent_iff : ∀ t : Fin cfg0.N, isRecurrent (grid0.coords t) ↔ t.val % 6 < 4 :=
  (by decide +kernel : ∀ t : Fin grid0.N, isRecurrent (grid0.coords t) ↔ t.val % 6 < 4)
theorem isExternal_iff : ∀ t : Fin cfg0.N, isExternal (grid0.coords t) ↔ 4 ≤ t.val % 6 :=
  (by decide +kernel : ∀ t : Fin grid0.N, isExternal (grid0.coords t) ↔ 4 ≤ t.val % 6)
theorem isLast_iff : ∀ t : Fin cfg0.N, isLast (grid0.coords t) ↔ t.val % 6 = 5 :=
  (by decide +kernel : ∀ t : Fin grid0.N, isLast (grid0.coords t) ↔ t.val % 6 = 5)

/-! ## Where the result windows are idle, and where they are written back -/

theorem idle_7 : ∀ t : Fin cfg0.N, ¬ t.val % 6 = 5 → cfg0.idle 7 (grid0.coords t) = true := by decide +kernel
theorem idle_8 : ∀ t : Fin cfg0.N, ¬ t.val % 6 = 5 → cfg0.idle 8 (grid0.coords t) = true := by decide +kernel
theorem idle_9 : ∀ t : Fin cfg0.N, ¬ t.val % 6 = 5 → cfg0.idle 9 (grid0.coords t) = true := by decide +kernel
theorem idle_10 : ∀ t : Fin cfg0.N, ¬ t.val % 6 = 5 → cfg0.idle 10 (grid0.coords t) = true := by decide +kernel
theorem live_7 : ∀ t : Fin cfg0.N, t.val % 6 = 5 → cfg0.idle 7 (grid0.coords t) = false := by decide +kernel
theorem live_8 : ∀ t : Fin cfg0.N, t.val % 6 = 5 → cfg0.idle 8 (grid0.coords t) = false := by decide +kernel
theorem live_9 : ∀ t : Fin cfg0.N, t.val % 6 = 5 → cfg0.idle 9 (grid0.coords t) = false := by decide +kernel
theorem live_10 : ∀ t : Fin cfg0.N, t.val % 6 = 5 → cfg0.idle 10 (grid0.coords t) = false := by decide +kernel
theorem noFlush_7 : ∀ t : Fin cfg0.N, ¬ t.val % 6 = 5 → (cfg0.win 7).flush t = false := by decide +kernel
theorem noFlush_8 : ∀ t : Fin cfg0.N, ¬ t.val % 6 = 5 → (cfg0.win 8).flush t = false := by decide +kernel
theorem noFlush_9 : ∀ t : Fin cfg0.N, ¬ t.val % 6 = 5 → (cfg0.win 9).flush t = false := by decide +kernel
theorem noFlush_10 : ∀ t : Fin cfg0.N, ¬ t.val % 6 = 5 → (cfg0.win 10).flush t = false := by decide +kernel

/-! ## The staging memrefs at a point -/

abbrev ms0 (t : Fin cfg0.N) : Memref sig .tc .vmem S1x16x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x16x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S16x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x16x1024 .f32 := win0_10.stage (cfg0.slots t 10)
abbrev hs10 (t : Fin cfg0.N) : (ms10 t).IsWhole := hstage0_10 ((cfg0.slots t 10).cast nbuf0_10)
/-- The accumulator: the kernel's one scratch buffer, carried from step to step. -/
abbrev accM : Memref sig .tc .vmem S16x1024 .f32 := Memref.whole cc0_scratch0
abbrev accV : View sig .tc .vmem S16x1024 .f32 := accM.view
abbrev outV7 : View sig .tc .vmem S16x1024 .f32 := (Memref.whole cc0_stg7_0 : Memref sig .tc .vmem S16x1024 .f32).view
abbrev outV8 : View sig .tc .vmem S16x1024 .f32 := (Memref.whole cc0_stg8_0 : Memref sig .tc .vmem S16x1024 .f32).view
abbrev outV9 : View sig .tc .vmem S16x1024 .f32 := (Memref.whole cc0_stg9_0 : Memref sig .tc .vmem S16x1024 .f32).view
abbrev outV10 : View sig .tc .vmem S8x16x1024 .f32 := (Memref.whole cc0_stg10_0 : Memref sig .tc .vmem S8x16x1024 .f32).view

/-- The scoped buffers that are no staging buffer are the accumulator alone, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.Kernel.Snn

end
-- ==== Proof.Word.RunFirst.lean ====
/-
  The first step of a column tile: the accumulator, whatever it held, is cleared and then the product of the
  step's block of the last delay row with its block of the recurrent weights is added to it. Run on whole
  staging memrefs, the two operand blocks are left as found and the accumulator ends with the two stores
  written, the later one first.
-/
import proofs.«106548_j23527830848088_2_alg».proof.Proof.Word.Cases

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def stepFirst (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : isFirst i) (h2 : isRecurrent i) (h3 : ¬isExternal i) (h4 : ¬isLast i)
    (x0 : Vec F S1x16x2048 .f32) (x1 : Vec F S2048x1024 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg13 fullShare d)
            ∗ (iprop(owns (c : Thread nD τ) arg2 fullShare x0 ∗ owns (c : Thread nD τ) arg3 fullShare x1 ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Snn

end
-- ==== Proof.Word.RunRecurrent.lean ====
/-
  A later recurrent step (steps 1..3): the product of the step's block of the last delay row with its block of
  the recurrent weights is added to what the accumulator held.
-/
import proofs.«106548_j23527830848088_2_alg».proof.Proof.Word.Cases

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def stepRecurrent (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : isRecurrent i) (h3 : ¬isExternal i) (h4 : ¬isLast i)
    (x0 : Vec F S1x16x2048 .f32) (x1 : Vec F S2048x1024 .f32) (xs : Vec F S16x1024 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg13 fullShare xs
            ∗ (iprop(owns (c : Thread nD τ) arg2 fullShare x0 ∗ owns (c : Thread nD τ) arg3 fullShare x1 ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg13.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Snn

end
-- ==== Proof.Word.RunExternal.lean ====
/-
  The first external step (step 4): the product of the step's block of the external spikes with its block of
  the external weights is added to what the accumulator held.
-/
import proofs.«106548_j23527830848088_2_alg».proof.Proof.Word.Cases

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def stepExternal (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : ¬isLast i)
    (x2 : Vec F S16x2048 .f32) (x3 : Vec F S2048x1024 .f32) (xs : Vec F S16x1024 .f32) :
    { LS : List (View.Piece (Elt F) S16x1024 .f32) //
      ∀ (E : Set ℕ) (K : PUnit → sProp 𝕄),
        iprop(owns (c : Thread nD τ) arg4 fullShare x2 ∗ owns (c : Thread nD τ) arg5 fullShare x3 ∗ owns (c : Thread nD τ) arg13 fullShare xs
            ∗ (iprop(owns (c : Thread nD τ) arg4 fullShare x2 ∗ owns (c : Thread nD τ) arg5 fullShare x3 ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%fs, %hfs, HS⟩, Hk⟩
    obtain rfl := harg4.eq_unread hf2; obtain rfl := harg5.eq_unread hf3; obtain rfl := harg13.eq_unread hfs
    sl_exec (disch := first | exact h1 | exact h2 | exact h3 | exact h4)
    sl_step
    iapply Hk
    isplitl [H2]
    · iexists _; isplitr; · ipureintro; exact harg4.read_unread _
      iexact H2
    isplitl [H3]
    · iexists _; isplitr; · ipureintro; exact harg5.read_unread _
      iexact H3
    iexists _; iexact HS

end Cert.Kernel.Snn

end
-- ==== Proof.Word.RunLast.lean ====
/-
  The last step of a column tile (step 5): the second external product is added to the accumulator; then, from
  the tile's blocks of the membrane potential and the adaptation and from the finished accumulator, the spikes,
  the new adaptation and the new potential are computed and stored whole into their three result buffers, and
  the shifted delay buffer is stored in two pieces: the spikes into slot 0, slots 0..6 of the old delay block
  into slots 1..7.
-/
import proofs.«106548_j23527830848088_2_alg».proof.Proof.Word.Cases

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def stepLast (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    Σ' (L7 : List (View.Piece (Elt F) S16x1024 .f32)) (L8 : List (View.Piece (Elt F) S16x1024 .f32))
       (L9 : List (View.Piece (Elt F) S16x1024 .f32)) (L10 : List (View.Piece (Elt F) S8x16x1024 .f32)),
    { LS : List (View.Piece (Elt F) S16x1024 .f32) //
      ∀ (E : Set ℕ) (K : PUnit → sProp 𝕄),
        iprop(owns (c : Thread nD τ) arg4 fullShare x2 ∗ owns (c : Thread nD τ) arg5 fullShare x3 ∗ owns (c : Thread nD τ) arg13 fullShare xs
            ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg4 fullShare x2 ∗ owns (c : Thread nD τ) arg5 fullShare x3 ∗ (∃ f, arg13.view.loc (c : Thread nD τ) ↦[arg13.view.set]{fullShare} arg13.view.writes (Elt F) f LS)
                ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f2, %hf2, H2⟩, ⟨%f3, %hf3, H3⟩, ⟨%fs, %hfs, HS⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg4.eq_unread hf2; obtain rfl := harg5.eq_unread hf3; obtain rfl := harg13.eq_unread hfs
    obtain rfl := harg6.eq_unread hf4; obtain rfl := harg7.eq_unread hf5; obtain rfl := harg8.eq_unread hf6
    sl_exec (disch := first | exact h1 | exact h2 | exact h3 | exact h4)
    sl_step
    iapply Hk
    isplitl [H2]
    · iexists _; isplitr; · ipureintro; exact harg4.read_unread _
      iexact H2
    isplitl [H3]
    · iexists _; isplitr; · ipureintro; exact harg5.read_unread _
      iexact H3
    isplitl [HS]; · iexists _; iexact HS
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact H10

end Cert.Kernel.Snn

end
-- ==== Proof.Word.Data.lean ====
/-
  What the kernel's run leaves, point by point. The accumulator after point t is defined by recursion on t: at the
  first step of a tile it is what the clearing and the first product leave, at every later step what that step's
  product leaves over what the point before left. The four result buffers are named at the last step of each tile
  (the only points that store into them and the only ones that write them back). The proof data of the pipeline
  follow: every operand window's buffer holds its block of the operand array at every point; the invariant carries
  the accumulator; the last delay row's array is read by two windows, each holding half of it.
-/
import proofs.«106548_j23527830848088_2_alg».proof.Proof.Word.RunFirst
import proofs.«106548_j23527830848088_2_alg».proof.Proof.Word.RunRecurrent
import proofs.«106548_j23527830848088_2_alg».proof.Proof.Word.RunExternal
import proofs.«106548_j23527830848088_2_alg».proof.Proof.Word.RunLast

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: @main has no line before the call. -/
abbrev V (c : Dev nD) (b : Ref sig .tc) : Buf (Elt F) ((c : Thread nD τ).loc b) := m ((c : Thread nD τ).loc b)

/-- Window w's block of its array at point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The four steps at a point -/

abbrev firstAt (c : Dev nD) (t : Fin cfg0.N) (h : t.val % 6 = 0) :=
  stepFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    ((isFirst_iff t).mpr (by omega)) ((isRecurrent_iff t).mpr (by omega)) (fun h' => by have := (isExternal_iff t).mp h'; omega) (fun h' => by have := (isLast_iff t).mp h'; omega)
    (iblk m c 0 t) (iblk m c 1 t)

abbrev recurrentAt (c : Dev nD) (t : Fin cfg0.N) (h0 : ¬ t.val % 6 = 0) (h : t.val % 6 < 4) (xs : Vec F S16x1024 .f32) :=
  stepRecurrent (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    (fun h' => by have := (isFirst_iff t).mp h'; omega) ((isRecurrent_iff t).mpr (by omega)) (fun h' => by have := (isExternal_iff t).mp h'; omega) (fun h' => by have := (isLast_iff t).mp h'; omega)
    (iblk m c 0 t) (iblk m c 1 t) xs

abbrev externalAt (c : Dev nD) (t : Fin cfg0.N) (h : t.val % 6 = 4) (xs : Vec F S16x1024 .f32) :=
  stepExternal (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    (fun h' => by have := (isFirst_iff t).mp h'; omega) (fun h' => by have := (isRecurrent_iff t).mp h'; omega) ((isExternal_iff t).mpr (by omega)) (fun h' => by have := (isLast_iff t).mp h'; omega)
    (iblk m c 2 t) (iblk m c 3 t) xs

abbrev lastAt (c : Dev nD) (t : Fin cfg0.N) (h : t.val % 6 = 5) (xs : Vec F S16x1024 .f32) :=
  stepLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    (fun h' => by have := (isFirst_iff t).mp h'; omega) (fun h' => by have := (isRecurrent_iff t).mp h'; omega) ((isExternal_iff t).mpr (by omega)) ((isLast_iff t).mpr (by omega))
    (iblk m c 2 t) (iblk m c 3 t) xs (iblk m c 4 t) (iblk m c 5 t) (iblk m c 6 t)

/-- A list of stores into the accumulator, read back. -/
abbrev rdAcc (L : List (View.Piece (Elt F) S16x1024 .f32)) : Vec F S16x1024 .f32 := accV.read (Elt F) (accV.writes (Elt F) accV.junk L)

/-! Every step's stores cover the accumulator (each stores it whole). -/
theorem first_cover (c : Dev nD) (t : Fin cfg0.N) (h : t.val % 6 = 0) (y : S16x1024.Idx) :
    ∃ pc ∈ (firstAt m c t h).1, y ∈ pc.1.set :=
  View.cover_of_tiledL (firstAt m c t h).1 S16x1024.size (by sl_kernel_rfl) y
theorem recurrent_cover (c : Dev nD) (t : Fin cfg0.N) (h0 : ¬ t.val % 6 = 0) (h : t.val % 6 < 4) (xs : Vec F S16x1024 .f32) (y : S16x1024.Idx) :
    ∃ pc ∈ (recurrentAt m c t h0 h xs).1, y ∈ pc.1.set :=
  View.cover_of_tiledL (recurrentAt m c t h0 h xs).1 S16x1024.size (by sl_kernel_rfl) y
theorem external_cover (c : Dev nD) (t : Fin cfg0.N) (h : t.val % 6 = 4) (xs : Vec F S16x1024 .f32) (y : S16x1024.Idx) :
    ∃ pc ∈ (externalAt m c t h xs).1, y ∈ pc.1.set :=
  View.cover_of_tiledL (externalAt m c t h xs).1 S16x1024.size (by sl_kernel_rfl) y
theorem last_cover (c : Dev nD) (t : Fin cfg0.N) (h : t.val % 6 = 5) (xs : Vec F S16x1024 .f32) (y : S16x1024.Idx) :
    ∃ pc ∈ (lastAt m c t h xs).2.2.2.2.1, y ∈ pc.1.set :=
  View.cover_of_tiledL (lastAt m c t h xs).2.2.2.2.1 S16x1024.size (by sl_kernel_rfl) y
/-! The last step's stores cover each result buffer: three whole stores, and the delay buffer in a slot and seven slots. -/
theorem last_cover7 (c : Dev nD) (t : Fin cfg0.N) (h : t.val % 6 = 5) (xs : Vec F S16x1024 .f32) (y : S16x1024.Idx) :
    ∃ pc ∈ (lastAt m c t h xs).1, y ∈ pc.1.set :=
  View.cover_of_tiledL (lastAt m c t h xs).1 S16x1024.size (by sl_kernel_rfl) y
theorem last_cover8 (c : Dev nD) (t : Fin cfg0.N) (h : t.val % 6 = 5) (xs : Vec F S16x1024 .f32) (y : S16x1024.Idx) :
    ∃ pc ∈ (lastAt m c t h xs).2.1, y ∈ pc.1.set :=
  View.cover_of_tiledL (lastAt m c t h xs).2.1 S16x1024.size (by sl_kernel_rfl) y
theorem last_cover9 (c : Dev nD) (t : Fin cfg0.N) (h : t.val % 6 = 5) (xs : Vec F S16x1024 .f32) (y : S16x1024.Idx) :
    ∃ pc ∈ (lastAt m c t h xs).2.2.1, y ∈ pc.1.set :=
  View.cover_of_tiledL (lastAt m c t h xs).2.2.1 S16x1024.size (by sl_kernel_rfl) y
theorem last_cover10 (c : Dev nD) (t : Fin cfg0.N) (h : t.val % 6 = 5) (xs : Vec F S16x1024 .f32) (y : S8x16x1024.Idx) :
    ∃ pc ∈ (lastAt m c t h xs).2.2.2.1, y ∈ pc.1.set :=
  View.cover_of_tiledBy (lastAt m c t h xs).2.2.2.1 ![1, 16, 1024] (by sl_kernel_rfl) y

/-! ## The accumulator after each point -/

/-- The accumulator after point n: by recursion on the point. -/
def accAt (c : Dev nD) : (n : ℕ) → n < cfg0.N → Vec F S16x1024 .f32
  | 0, hn => rdAcc (firstAt m c ⟨0, hn⟩ (Nat.zero_mod _)).1
  | n + 1, hn =>
    if h0 : (n + 1) % 6 = 0 then rdAcc (firstAt m c ⟨n + 1, hn⟩ h0).1
    else if h3 : (n + 1) % 6 < 4 then rdAcc (recurrentAt m c ⟨n + 1, hn⟩ h0 h3 (accAt c n (Nat.lt_of_succ_lt hn))).1
    else if h5 : (n + 1) % 6 = 5 then rdAcc (lastAt m c ⟨n + 1, hn⟩ h5 (accAt c n (Nat.lt_of_succ_lt hn))).2.2.2.2.1
    else rdAcc (externalAt m c ⟨n + 1, hn⟩ (by show (n + 1) % 6 = 4; omega) (accAt c n (Nat.lt_of_succ_lt hn))).1

/-- The accumulator the point before left (at the first point: a placeholder nothing reads). -/
abbrev accBefore (c : Dev nD) (t : Fin cfg0.N) : Vec F S16x1024 .f32 :=
  accAt m c (t.val - 1) (Nat.lt_of_le_of_lt (Nat.sub_le _ _) t.isLt)

theorem accAt_first (c : Dev nD) (t : Fin cfg0.N) (h : t.val % 6 = 0) :
    accAt m c t.val t.isLt = rdAcc (firstAt m c t h).1 := by
  obtain ⟨n, hn⟩ := t
  cases n with
  | zero => rfl
  | succ n => exact (dif_pos h).trans rfl

theorem accAt_recurrent (c : Dev nD) (t : Fin cfg0.N) (h0 : ¬ t.val % 6 = 0) (h3 : t.val % 6 < 4) :
    accAt m c t.val t.isLt = rdAcc (recurrentAt m c t h0 h3 (accBefore m c t)).1 := by
  obtain ⟨n, hn⟩ := t
  cases n with
  | zero => exact absurd (Nat.zero_mod _) h0
  | succ n => exact (dif_neg h0).trans ((dif_pos h3).trans rfl)

theorem accAt_external (c : Dev nD) (t : Fin cfg0.N) (h4 : t.val % 6 = 4) :
    accAt m c t.val t.isLt = rdAcc (externalAt m c t h4 (accBefore m c t)).1 := by
  obtain ⟨n, hn⟩ := t
  cases n with
  | zero => exact absurd (show 0 % 6 = 4 from h4) (by decide)
  | succ n =>
    have h0 : ¬ (n + 1) % 6 = 0 := by (try dsimp only at h4); omega
    have h3 : ¬ (n + 1) % 6 < 4 := by (try dsimp only at h4); omega
    have h5 : ¬ (n + 1) % 6 = 5 := by (try dsimp only at h4); omega
    exact (dif_neg h0).trans ((dif_neg h3).trans ((dif_neg h5).trans rfl))

theorem accAt_last (c : Dev nD) (t : Fin cfg0.N) (h5 : t.val % 6 = 5) :
    accAt m c t.val t.isLt = rdAcc (lastAt m c t h5 (accBefore m c t)).2.2.2.2.1 := by
  obtain ⟨n, hn⟩ := t
  cases n with
  | zero => exact absurd (show 0 % 6 = 5 from h5) (by decide)
  | succ n =>
    have h0 : ¬ (n + 1) % 6 = 0 := by (try dsimp only at h5); omega
    have h3 : ¬ (n + 1) % 6 < 4 := by (try dsimp only at h5); omega
    exact (dif_neg h0).trans ((dif_neg h3).trans ((dif_pos h5).trans rfl))

/-! ## The result buffers after the last step of a tile -/

def out7At (c : Dev nD) (t : Fin cfg0.N) : Vec F S16x1024 .f32 :=
  if h : t.val % 6 = 5 then outV7.read (Elt F) (outV7.writes (Elt F) outV7.junk (lastAt m c t h (accBefore m c t)).1) else outV7.read (Elt F) outV7.junk
def out8At (c : Dev nD) (t : Fin cfg0.N) : Vec F S16x1024 .f32 :=
  if h : t.val % 6 = 5 then outV8.read (Elt F) (outV8.writes (Elt F) outV8.junk (lastAt m c t h (accBefore m c t)).2.1) else outV8.read (Elt F) outV8.junk
def out9At (c : Dev nD) (t : Fin cfg0.N) : Vec F S16x1024 .f32 :=
  if h : t.val % 6 = 5 then outV9.read (Elt F) (outV9.writes (Elt F) outV9.junk (lastAt m c t h (accBefore m c t)).2.2.1) else outV9.read (Elt F) outV9.junk
def out10At (c : Dev nD) (t : Fin cfg0.N) : Vec F S8x16x1024 .f32 :=
  if h : t.val % 6 = 5 then outV10.read (Elt F) (outV10.writes (Elt F) outV10.junk (lastAt m c t h (accBefore m c t)).2.2.2.1) else outV10.read (Elt F) outV10.junk

/-! ## The invariant: the accumulator -/

/-- Before the first point the accumulator holds anything; before any later point, what the point before left. -/
def PhiAcc (c : Dev nD) : (n : ℕ) → n ≤ cfg0.N → sProp 𝕄
  | 0, _ => Pipeline.scopedRest spec0 c
  | n + 1, hn => owns (c : Thread nD τ) accM fullShare (accAt m c n hn)

theorem PhiAcc_zero (c : Dev nD) (n : ℕ) (h : n ≤ cfg0.N) (hz : n = 0) : PhiAcc m c n h = Pipeline.scopedRest spec0 c := by
  subst hz; rfl
theorem PhiAcc_succ (c : Dev nD) (n : ℕ) (hn : n < cfg0.N) :
    PhiAcc m c (n + 1) hn = owns (c : Thread nD τ) accM fullShare (accAt m c n hn) := rfl
theorem PhiAcc_pos (c : Dev nD) (n : ℕ) (h : n ≤ cfg0.N) (hz : n ≠ 0) :
    PhiAcc m c n h = owns (c : Thread nD τ) accM fullShare (accAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7At m c t
    | ⟨8, _⟩ => out8At m c t
    | ⟨9, _⟩ => out9At m c t
    | ⟨10, _⟩ => out10At m c t
  Φ t := PhiAcc m c t.val (Nat.le_of_lt_succ t.isLt)
  q w := match w with
    | ⟨0, _⟩ => fullShare.left
    | ⟨1, _⟩ => fullShare
    | ⟨2, _⟩ => fullShare
    | ⟨3, _⟩ => fullShare
    | ⟨4, _⟩ => fullShare
    | ⟨5, _⟩ => fullShare
    | ⟨6, _⟩ => fullShare.right
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem PhiAcc_castSucc (c : Dev nD) (t : Fin cfg0.N) :
    (dats m 0 c).Φ t.castSucc = PhiAcc m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7At m c t := by dsimp only [dats]
theorem after_8 (c : Dev nD) (t : Fin cfg0.N) : (dats m 0 c).after 8 t = out8At m c t := by dsimp only [dats]
theorem after_9 (c : Dev nD) (t : Fin cfg0.N) : (dats m 0 c).after 9 t = out9At m c t := by dsimp only [dats]
theorem after_10 (c : Dev nD) (t : Fin cfg0.N) : (dats m 0 c).after 10 t = out10At m c t := by dsimp only [dats]

/-! Every operand window's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

end Cert.Kernel.Snn

end
-- ==== Proof.Word.Body.lean ====
/-
  The body obligation. At a point the body is handed the accumulator at what the point before left (at anything
  before the first point), every operand window's buffer at its block, and the result buffers; which of the four
  steps it runs is decided by the point's residue mod 6. Each step's run leaves the operand buffers as found and
  the accumulator at the step's stores; the last step also fills the four result buffers. At the other points the
  result buffers are idle: handed back as found, and not written back.
-/
import proofs.«106548_j23527830848088_2_alg».proof.Proof.Word.Data

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem liveIn_0 : ∀ t : Fin cfg0.N, cfg0.idle 0 (grid0.coords t) = false := fun _ => rfl
theorem liveIn_1 : ∀ t : Fin cfg0.N, cfg0.idle 1 (grid0.coords t) = false := fun _ => rfl
theorem liveIn_2 : ∀ t : Fin cfg0.N, cfg0.idle 2 (grid0.coords t) = false := fun _ => rfl
theorem liveIn_3 : ∀ t : Fin cfg0.N, cfg0.idle 3 (grid0.coords t) = false := fun _ => rfl
theorem liveIn_4 : ∀ t : Fin cfg0.N, cfg0.idle 4 (grid0.coords t) = false := fun _ => rfl
theorem liveIn_5 : ∀ t : Fin cfg0.N, cfg0.idle 5 (grid0.coords t) = false := fun _ => rfl
theorem liveIn_6 : ∀ t : Fin cfg0.N, cfg0.idle 6 (grid0.coords t) = false := fun _ => rfl

theorem leaves_in_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveIn_0 t], after_0]
theorem leaves_in_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveIn_1 t], after_1]
theorem leaves_in_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveIn_2 t], after_2]
theorem leaves_in_3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveIn_3 t], after_3]
theorem leaves_in_4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveIn_4 t], after_4]
theorem leaves_in_5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveIn_5 t], after_5]
theorem leaves_in_6 (c : Dev nD) (t : Fin cfg0.N) :
    (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [liveIn_6 t], after_6]

theorem leaves_out_7 (c : Dev nD) (t : Fin cfg0.N) (h5 : t.val % 6 = 5) :
    (dats m 0 c).leavesExact 7 t = owns (c : Thread nD τ) (ms7 t) fullShare (outV7.read (Elt F) (outV7.writes (Elt F) outV7.junk (lastAt m c t h5 (accBefore m c t)).1)) := by
  rw [show (dats m 0 c).leavesExact 7 t = owns (c : Thread nD τ) (ms7 t) fullShare ((dats m 0 c).after 7 t) from by
    unfold Dat.leavesExact; rw [live_7 t h5], after_7]
  unfold out7At; rw [dif_pos h5]
theorem leaves_out_8 (c : Dev nD) (t : Fin cfg0.N) (h5 : t.val % 6 = 5) :
    (dats m 0 c).leavesExact 8 t = owns (c : Thread nD τ) (ms8 t) fullShare (outV8.read (Elt F) (outV8.writes (Elt F) outV8.junk (lastAt m c t h5 (accBefore m c t)).2.1)) := by
  rw [show (dats m 0 c).leavesExact 8 t = owns (c : Thread nD τ) (ms8 t) fullShare ((dats m 0 c).after 8 t) from by
    unfold Dat.leavesExact; rw [live_8 t h5], after_8]
  unfold out8At; rw [dif_pos h5]
theorem leaves_out_9 (c : Dev nD) (t : Fin cfg0.N) (h5 : t.val % 6 = 5) :
    (dats m 0 c).leavesExact 9 t = owns (c : Thread nD τ) (ms9 t) fullShare (outV9.read (Elt F) (outV9.writes (Elt F) outV9.junk (lastAt m c t h5 (accBefore m c t)).2.2.1)) := by
  rw [show (dats m 0 c).leavesExact 9 t = owns (c : Thread nD τ) (ms9 t) fullShare ((dats m 0 c).after 9 t) from by
    unfold Dat.leavesExact; rw [live_9 t h5], after_9]
  unfold out9At; rw [dif_pos h5]
theorem leaves_out_10 (c : Dev nD) (t : Fin cfg0.N) (h5 : t.val % 6 = 5) :
    (dats m 0 c).leavesExact 10 t = owns (c : Thread nD τ) (ms10 t) fullShare (outV10.read (Elt F) (outV10.writes (Elt F) outV10.junk (lastAt m c t h5 (accBefore m c t)).2.2.2.1)) := by
  rw [show (dats m 0 c).leavesExact 10 t = owns (c : Thread nD τ) (ms10 t) fullShare ((dats m 0 c).after 10 t) from by
    unfold Dat.leavesExact; rw [live_10 t h5], after_10]
  unfold out10At; rw [dif_pos h5]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiAcc m c (t.val + 1) t.isLt from rfl, PhiAcc_succ]
  rw [leaves_in_0, leaves_in_1, leaves_in_2, leaves_in_3, leaves_in_4, leaves_in_5, leaves_in_6]
  have hN : t.val < 48 := lt_of_lt_of_eq t.isLt (show cfg0.N = 48 from N_0)
  by_cases h0 : t.val % 6 = 0
  · rw [Dat.leavesExact_idle (dats m 0 c) 7 t (idle_7 t (by omega)) (noFlush_7 t (by omega)),
        Dat.leavesExact_idle (dats m 0 c) 8 t (idle_8 t (by omega)) (noFlush_8 t (by omega)),
        Dat.leavesExact_idle (dats m 0 c) 9 t (idle_9 t (by omega)) (noFlush_9 t (by omega)),
        Dat.leavesExact_idle (dats m 0 c) 10 t (idle_10 t (by omega)) (noFlush_10 t (by omega))]
    rw [accAt_first m c t h0]
    by_cases hz : t.val = 0
    · rw [PhiAcc_castSucc m c t, PhiAcc_zero m c _ _ hz, scopedRest_acc]
      iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
      iapply ((firstAt m c t h0).2 Set.univ _)
      isplitl [H0]; · iexact H0
      isplitl [H1]; · iexact H1
      isplitl [HS]; · iexact HS
      iintro ⟨H0, H1, ⟨%es, HS⟩⟩
      isplitl [HS]
      · unfold owns; iexists _; isplitr
        swap; · iexact HS
        ipureintro; exact View.read_writes_of_cover _ _ _ _ _ (first_cover m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [PhiAcc_castSucc m c t, PhiAcc_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
      iapply ((firstAt m c t h0).2 Set.univ _)
      isplitl [H0]; · iexact H0
      isplitl [H1]; · iexact H1
      isplitl [HS]; · iexists _; iexact HS
      iintro ⟨H0, H1, ⟨%es, HS⟩⟩
      isplitl [HS]
      · unfold owns; iexists _; isplitr
        swap; · iexact HS
        ipureintro; exact View.read_writes_of_cover _ _ _ _ _ (first_cover m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun h => h0 (by rw [h])
    by_cases h3 : t.val % 6 < 4
    · rw [Dat.leavesExact_idle (dats m 0 c) 7 t (idle_7 t (by omega)) (noFlush_7 t (by omega)),
        Dat.leavesExact_idle (dats m 0 c) 8 t (idle_8 t (by omega)) (noFlush_8 t (by omega)),
        Dat.leavesExact_idle (dats m 0 c) 9 t (idle_9 t (by omega)) (noFlush_9 t (by omega)),
        Dat.leavesExact_idle (dats m 0 c) 10 t (idle_10 t (by omega)) (noFlush_10 t (by omega))]
      rw [accAt_recurrent m c t h0 h3]
      rw [PhiAcc_castSucc m c t, PhiAcc_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
      iapply ((recurrentAt m c t h0 h3 (accBefore m c t)).2 Set.univ _)
      isplitl [H0]; · iexact H0
      isplitl [H1]; · iexact H1
      isplitl [HS]; · iexact HS
      iintro ⟨H0, H1, ⟨%es, HS⟩⟩
      isplitl [HS]
      · unfold owns; iexists _; isplitr
        swap; · iexact HS
        ipureintro; exact View.read_writes_of_cover _ _ _ _ _ (recurrent_cover m c t h0 h3 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · by_cases h5 : t.val % 6 = 5
      · rw [leaves_out_7 m c t h5, leaves_out_8 m c t h5, leaves_out_9 m c t h5, leaves_out_10 m c t h5]
        rw [accAt_last m c t h5]
        rw [PhiAcc_castSucc m c t, PhiAcc_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((lastAt m c t h5 (accBefore m c t)).2.2.2.2.2 Set.univ _)
        isplitl [H2]; · iexact H2
        isplitl [H3]; · iexact H3
        isplitl [HS]; · iexact HS
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        iintro ⟨H2, H3, ⟨%es, HS⟩, H4, H5, H6, ⟨%e7, H7⟩, ⟨%e8, H8⟩, ⟨%e9, H9⟩, ⟨%e10, H10⟩⟩
        isplitl [HS]
        · unfold owns; iexists _; isplitr
          swap; · iexact HS
          ipureintro; exact View.read_writes_of_cover _ _ _ _ _ (last_cover m c t h5 _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (last_cover7 m c t h5 _)
        isplitl [H8]
        · unfold owns; iexists _; isplitr
          swap; · iexact H8
          ipureintro; exact View.read_writes_of_cover _ _ _ _ _ (last_cover8 m c t h5 _)
        isplitl [H9]
        · unfold owns; iexists _; isplitr
          swap; · iexact H9
          ipureintro; exact View.read_writes_of_cover _ _ _ _ _ (last_cover9 m c t h5 _)
        unfold owns; iexists _; isplitr
        swap; · iexact H10
        ipureintro; exact View.read_writes_of_cover _ _ _ _ _ (last_cover10 m c t h5 _)
      · have h4 : t.val % 6 = 4 := by omega
        rw [Dat.leavesExact_idle (dats m 0 c) 7 t (idle_7 t (by omega)) (noFlush_7 t (by omega)),
        Dat.leavesExact_idle (dats m 0 c) 8 t (idle_8 t (by omega)) (noFlush_8 t (by omega)),
        Dat.leavesExact_idle (dats m 0 c) 9 t (idle_9 t (by omega)) (noFlush_9 t (by omega)),
        Dat.leavesExact_idle (dats m 0 c) 10 t (idle_10 t (by omega)) (noFlush_10 t (by omega))]
        rw [accAt_external m c t h4]
        rw [PhiAcc_castSucc m c t, PhiAcc_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
        iapply ((externalAt m c t h4 (accBefore m c t)).2 Set.univ _)
        isplitl [H2]; · iexact H2
        isplitl [H3]; · iexact H3
        isplitl [HS]; · iexact HS
        iintro ⟨H2, H3, ⟨%es, HS⟩⟩
        isplitl [HS]
        · unfold owns; iexists _; isplitr
          swap; · iexact HS
          ipureintro; exact View.read_writes_of_cover _ _ _ _ _ (external_cover m c t h4 _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Snn

end
-- ==== Proof.Word.Run.lean ====
/-
  The launch. The pallas_call hands one array, the delay buffer, to two operand windows (its last row, and its
  column tile); both only read it, so the array's buffer is split between them, half each, and every other array
  is held whole by its one window. With that split, the body obligation and the accumulator as the invariant,
  the library's launch theorem for windows sharing arrays gives the run: every weakly fair execution of @main
  terminates, nothing faults, and every windowed array ends at what the write-backs leave; an operand array is
  never written, so it ends as it began.
-/
import proofs.«106548_j23527830848088_2_alg».proof.Proof.Word.Body

set_option maxRecDepth 16384

noncomputable section

namespace Cert.Kernel.Snn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the pipeline's rounds algebra. -/
def u₀ : UR sig nD τ := initOf (Pipeline.cells cfgs cellOf_inj) (Pipeline.launchToks cfgs cellOf_inj)

theorem share_0 (c : Dev nD) : (dats m 0 c).share 0 = fullShare.left := rfl
theorem share_1 (c : Dev nD) : (dats m 0 c).share 1 = fullShare := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare.right := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl

/-- The windowed arrays as points-tos of the buffers behind them, each at its window's share. -/
theorem arrays_pts (c : Dev nD) (G : (w : Fin cfg0.W) → Buf (Elt F) ((cfg0.win w).arr.view.loc (c : Thread nD τ))) :
    (dats m 0 c).arrays G = bigSep Finset.univ fun w : Fin 11 => (((c : Thread nD τ).loc (Pipeline.arrRef spec0 w)) ↦{(dats m 0 c).share w} G w : sProp 𝕄) := by
  unfold Dat.arrays
  exact bigSep_congr fun w _ => by rw [(arr_whole0 w).set_eq_univ]

/-- The ten distinct buffers behind the eleven windows, one by one. -/
theorem arrBufs_list (c : Dev nD) :
    (Pipeline.arrBufs spec0 c (V m c) : sProp 𝕄)
      = iprop((((c : Thread nD τ).loc main_arg2) ↦{fullShare} V m c main_arg2) ∗ (((c : Thread nD τ).loc main_arg4) ↦{fullShare} V m c main_arg4) ∗ (((c : Thread nD τ).loc main_arg3) ↦{fullShare} V m c main_arg3) ∗ (((c : Thread nD τ).loc main_arg5) ↦{fullShare} V m c main_arg5) ∗ (((c : Thread nD τ).loc main_arg0) ↦{fullShare} V m c main_arg0) ∗ (((c : Thread nD τ).loc main_arg1) ↦{fullShare} V m c main_arg1) ∗ (((c : Thread nD τ).loc main_v0_0) ↦{fullShare} V m c main_v0_0) ∗ (((c : Thread nD τ).loc main_v0_1) ↦{fullShare} V m c main_v0_1) ∗ (((c : Thread nD τ).loc main_v0_2) ↦{fullShare} V m c main_v0_2) ∗ (((c : Thread nD τ).loc main_v0_3) ↦{fullShare} V m c main_v0_3)) := by
  unfold Pipeline.arrBufs
  exact bigSep_eq_bigSepL_of_eq [main_arg2, main_arg4, main_arg3, main_arg5, main_arg0, main_arg1, main_v0_0, main_v0_1, main_v0_2, main_v0_3] (by decide) (by decide) _

/-- The ten distinct buffers behind the eleven windows, each whole, are the windows' arrays at their shares: the
    delay buffer's is halved between the two windows that read it. -/
theorem hsplit (c : Dev nD) :
    (Pipeline.arrBufs spec0 c (V m c) : sProp 𝕄) ⊢ (dats m 0 c).arrays ((dats m 0 c).arrAt · 0) := by
  rw [arrays_pts, bigSep_W0]
  simp only [share_0, share_1, share_2, share_3, share_4, share_5, share_6, share_7, share_8, share_9, share_10]
  rw [arrBufs_list]
  iintro ⟨H2, H4, H3, H5, H0, H1, O0, O1, O2, O3⟩
  ihave H2' := (pointsTo_share (PosShare.mem_left_op_right fullShare)).1 $$ H2
  icases H2' with ⟨H2l, H2r⟩
  isplitl [H2l]; · iexact H2l
  isplitl [H4]; · iexact H4
  isplitl [H3]; · iexact H3
  isplitl [H5]; · iexact H5
  isplitl [H0]; · iexact H0
  isplitl [H1]; · iexact H1
  isplitl [H2r]; · iexact H2r
  isplitl [O0]; · iexact O0
  isplitl [O1]; · iexact O1
  isplitl [O2]; · iexact O2
  iexact O3

/-- Before the first point the accumulator holds anything: the launch's scoped rest is the invariant there. -/
theorem phi_in (c : Dev nD) : iprop(emp ∗ Pipeline.scopedRest spec0 c) ⊢ (dats m 0 c).Φ 0 := by
  rw [show (dats m 0 c).Φ 0 = Pipeline.scopedRest spec0 c from rfl]
  iintro ⟨-, H⟩; iexact H

/-- After the last point the accumulator's contents are forgotten. -/
theorem phi_out (c : Dev nD) : (dats m 0 c).Φ (Fin.last cfg0.N) ⊢ iprop(emp ∗ Pipeline.scopedRest spec0 c) := by
  rw [show (dats m 0 c).Φ (Fin.last cfg0.N) = PhiAcc m c (Fin.last cfg0.N).val (Nat.le_of_lt_succ (Fin.last cfg0.N).isLt) from rfl,
    PhiAcc_pos m c _ _ (by rw [Fin.val_last]; have : cfg0.N = 48 := N_0; omega), scopedRest_acc]
  iintro H; isplitr; · iempintro
  iexists _; iexact H

/-- The run's post: every windowed array at what the write-backs leave. -/
def Final : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
theorem run_main : θ_run defs (onTc (τ := τ) (main (F := F))) (s₀ m ρ) (Final m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := phi_in m) (hout := phi_out m)
    (QY := fun _ _ => True)
    (hY := fun c s' => by
      iintro ⟨-, -, HSI⟩; imodintro
      isplitr; · ipureintro; trivial
      iexact HSI)
    (hQ := fun _ h c w => (h c).1 w)

/-- info: 'Cert.Kernel.Snn.run_main' depends on axioms: [propext, Classical.choice, Quot.sound] -/
#guard_msgs in #print axioms run_main

/-- The frame: the program runs and its six argument arrays end unchanged (each is an operand window's array). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c 4).trans ((dats m 0 c).arrAt_in 4 rfl _), (h c 5).trans ((dats m 0 c).arrAt_in 5 rfl _),
     (h c 0).trans ((dats m 0 c).arrAt_in 0 rfl _), (h c 2).trans ((dats m 0 c).arrAt_in 2 rfl _),
     (h c 1).trans ((dats m 0 c).arrAt_in 1 rfl _), (h c 3).trans ((dats m 0 c).arrAt_in 3 rfl _)⟩) (run_main m ρ)

end Cert.Kernel.Snn

end
-- ==== Proof.Ideal.Cases.lean ====
/-
  The grid is 8 column tiles by 6 reduction steps; a point t has column tile t / 6 and step t % 6.
  The body branches four times on the step: step 0 clears the accumulator; steps 0..3 add the product of
  a block of the last delay row with a block of the recurrent weights; steps 4..5 add the product of a block
  of the external spikes with a block of the external weights; step 5 also computes the spikes, the new
  adaptation, the new membrane potential and the shifted delay buffer and stores them.
  Here: the four conditions in closed form over the 48 points, where the four result windows are idle
  and where they are written back, and names for the staging memrefs the body is called with.
-/
import proofs.«106548_j23527830848088_2_alg».proof.Proof.Gen.KernelIdeal.Launch
import proofs.«106548_j23527830848088_2_alg».proof.Proof.Gen.KernelIdeal.Skeleton
import proofs.«106548_j23527830848088_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- The step is the first one (the accumulator is cleared). -/
abbrev isFirst (i : grid0.Coords) : Prop := (Scalar.cmpi .ne (Scalar.extui (Scalar.cmpi .eq (BitVec.ofNat 32 (i 1).val) 0#32)) 0#32) = 1#1
/-- The step contracts a block of the recurrent weights (steps 0..3). -/
abbrev isRecurrent (i : grid0.Coords) : Prop := (Scalar.cmpi .ne (Scalar.extui (Scalar.cmpi .slt (BitVec.ofNat 32 (i 1).val) 4#32)) 0#32) = 1#1
/-- The step contracts a block of the external weights (steps 4..5). -/
abbrev isExternal (i : grid0.Coords) : Prop := (Scalar.cmpi .ne (Scalar.extui (Scalar.cmpi .sge (BitVec.ofNat 32 (i 1).val) 4#32)) 0#32) = 1#1
/-- The step is the last one (the results are computed and stored). -/
abbrev isLast (i : grid0.Coords) : Prop := k0_cond4 i = 1#1

theorem isFirst_iff : ∀ t : Fin cfg0.N, isFirst (grid0.coords t) ↔ t.val % 6 = 0 :=
  (by decide +kernel : ∀ t : Fin grid0.N, isFirst (grid0.coords t) ↔ t.val % 6 = 0)
theorem isRecurrent_iff : ∀ t : Fin cfg0.N, isRecurrent (grid0.coords t) ↔ t.val % 6 < 4 :=
  (by decide +kernel : ∀ t : Fin grid0.N, isRecurrent (grid0.coords t) ↔ t.val % 6 < 4)
theorem isExternal_iff : ∀ t : Fin cfg0.N, isExternal (grid0.coords t) ↔ 4 ≤ t.val % 6 :=
  (by decide +kernel : ∀ t : Fin grid0.N, isExternal (grid0.coords t) ↔ 4 ≤ t.val % 6)
theorem isLast_iff : ∀ t : Fin cfg0.N, isLast (grid0.coords t) ↔ t.val % 6 = 5 :=
  (by decide +kernel : ∀ t : Fin grid0.N, isLast (grid0.coords t) ↔ t.val % 6 = 5)

/-! ## Where the result windows are idle, and where they are written back -/

theorem idle_7 : ∀ t : Fin cfg0.N, ¬ t.val % 6 = 5 → cfg0.idle 7 (grid0.coords t) = true := by decide +kernel
theorem idle_8 : ∀ t : Fin cfg0.N, ¬ t.val % 6 = 5 → cfg0.idle 8 (grid0.coords t) = true := by decide +kernel
theorem idle_9 : ∀ t : Fin cfg0.N, ¬ t.val % 6 = 5 → cfg0.idle 9 (grid0.coords t) = true := by decide +kernel
theorem idle_10 : ∀ t : Fin cfg0.N, ¬ t.val % 6 = 5 → cfg0.idle 10 (grid0.coords t) = true := by decide +kernel
theorem live_7 : ∀ t : Fin cfg0.N, t.val % 6 = 5 → cfg0.idle 7 (grid0.coords t) = false := by decide +kernel
theorem live_8 : ∀ t : Fin cfg0.N, t.val % 6 = 5 → cfg0.idle 8 (grid0.coords t) = false := by decide +kernel
theorem live_9 : ∀ t : Fin cfg0.N, t.val % 6 = 5 → cfg0.idle 9 (grid0.coords t) = false := by decide +kernel
theorem live_10 : ∀ t : Fin cfg0.N, t.val % 6 = 5 → cfg0.idle 10 (grid0.coords t) = false := by decide +kernel
theorem noFlush_7 : ∀ t : Fin cfg0.N, ¬ t.val % 6 = 5 → (cfg0.win 7).flush t = false := by decide +kernel
theorem noFlush_8 : ∀ t : Fin cfg0.N, ¬ t.val % 6 = 5 → (cfg0.win 8).flush t = false := by decide +kernel
theorem noFlush_9 : ∀ t : Fin cfg0.N, ¬ t.val % 6 = 5 → (cfg0.win 9).flush t = false := by decide +kernel
theorem noFlush_10 : ∀ t : Fin cfg0.N, ¬ t.val % 6 = 5 → (cfg0.win 10).flush t = false := by decide +kernel

/-! ## The staging memrefs at a point -/

abbrev ms0 (t : Fin cfg0.N) : Memref sig .tc .vmem S1x16x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x16x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S16x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x16x1024 .f32 := win0_10.stage (cfg0.slots t 10)
abbrev hs10 (t : Fin cfg0.N) : (ms10 t).IsWhole := hstage0_10 ((cfg0.slots t 10).cast nbuf0_10)
/-- The accumulator: the kernel's one scratch buffer, carried from step to step. -/
abbrev accM : Memref sig .tc .vmem S16x1024 .f32 := Memref.whole cc0_scratch0
abbrev accV : View sig .tc .vmem S16x1024 .f32 := accM.view
abbrev outV7 : View sig .tc .vmem S16x1024 .f32 := (Memref.whole cc0_stg7_0 : Memref sig .tc .vmem S16x1024 .f32).view
abbrev outV8 : View sig .tc .vmem S16x1024 .f32 := (Memref.whole cc0_stg8_0 : Memref sig .tc .vmem S16x1024 .f32).view
abbrev outV9 : View sig .tc .vmem S16x1024 .f32 := (Memref.whole cc0_stg9_0 : Memref sig .tc .vmem S16x1024 .f32).view
abbrev outV10 : View sig .tc .vmem S8x16x1024 .f32 := (Memref.whole cc0_stg10_0 : Memref sig .tc .vmem S8x16x1024 .f32).view

/-- The scoped buffers that are no staging buffer are the accumulator alone, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.KernelIdeal.Snn

end
-- ==== Proof.Ideal.RunFirst.lean ====
/-
  The first step of a column tile: the accumulator, whatever it held, is cleared and then the product of the
  step's block of the last delay row with its block of the recurrent weights is added to it. Run on whole
  staging memrefs, the two operand blocks are left as found and the accumulator ends with the two stores
  written, the later one first.
-/
import proofs.«106548_j23527830848088_2_alg».proof.Proof.Ideal.Cases

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def stepFirst (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : isFirst i) (h2 : isRecurrent i) (h3 : ¬isExternal i) (h4 : ¬isLast i)
    (x0 : Vec F S1x16x2048 .f32) (x1 : Vec F S2048x1024 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg13 fullShare d)
            ∗ (iprop(owns (c : Thread nD τ) arg2 fullShare x0 ∗ owns (c : Thread nD τ) arg3 fullShare x1 ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Snn

end
-- ==== Proof.Ideal.RunRecurrent.lean ====
/-
  A later recurrent step (steps 1..3): the product of the step's block of the last delay row with its block of
  the recurrent weights is added to what the accumulator held.
-/
import proofs.«106548_j23527830848088_2_alg».proof.Proof.Ideal.Cases

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def stepRecurrent (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : isRecurrent i) (h3 : ¬isExternal i) (h4 : ¬isLast i)
    (x0 : Vec F S1x16x2048 .f32) (x1 : Vec F S2048x1024 .f32) (xs : Vec F S16x1024 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg13 fullShare xs
            ∗ (iprop(owns (c : Thread nD τ) arg2 fullShare x0 ∗ owns (c : Thread nD τ) arg3 fullShare x1 ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg13.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Snn

end
-- ==== Proof.Ideal.RunExternal.lean ====
/-
  The first external step (step 4): the product of the step's block of the external spikes with its block of
  the external weights is added to what the accumulator held.
-/
import proofs.«106548_j23527830848088_2_alg».proof.Proof.Ideal.Cases

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def stepExternal (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : ¬isLast i)
    (x2 : Vec F S16x2048 .f32) (x3 : Vec F S2048x1024 .f32) (xs : Vec F S16x1024 .f32) :
    { LS : List (View.Piece (Elt F) S16x1024 .f32) //
      ∀ (E : Set ℕ) (K : PUnit → sProp 𝕄),
        iprop(owns (c : Thread nD τ) arg4 fullShare x2 ∗ owns (c : Thread nD τ) arg5 fullShare x3 ∗ owns (c : Thread nD τ) arg13 fullShare xs
            ∗ (iprop(owns (c : Thread nD τ) arg4 fullShare x2 ∗ owns (c : Thread nD τ) arg5 fullShare x3 ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%fs, %hfs, HS⟩, Hk⟩
    obtain rfl := harg4.eq_unread hf2; obtain rfl := harg5.eq_unread hf3; obtain rfl := harg13.eq_unread hfs
    sl_exec (disch := first | exact h1 | exact h2 | exact h3 | exact h4)
    sl_step
    iapply Hk
    isplitl [H2]
    · iexists _; isplitr; · ipureintro; exact harg4.read_unread _
      iexact H2
    isplitl [H3]
    · iexists _; isplitr; · ipureintro; exact harg5.read_unread _
      iexact H3
    iexists _; iexact HS

end Cert.KernelIdeal.Snn

end
-- ==== Proof.Ideal.RunLast.lean ====
/-
  The last step of a column tile (step 5): the second external product is added to the accumulator; then, from
  the tile's blocks of the membrane potential and the adaptation and from the finished accumulator, the spikes,
  the new adaptation and the new potential are computed and stored whole into their three result buffers, and
  the shifted delay buffer is stored in two pieces: the spikes into slot 0, slots 0..6 of the old delay block
  into slots 1..7.
-/
import proofs.«106548_j23527830848088_2_alg».proof.Proof.Ideal.Cases

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def stepLast (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    Σ' (L7 : List (View.Piece (Elt F) S16x1024 .f32)) (L8 : List (View.Piece (Elt F) S16x1024 .f32))
       (L9 : List (View.Piece (Elt F) S16x1024 .f32)) (L10 : List (View.Piece (Elt F) S8x16x1024 .f32)),
    { LS : List (View.Piece (Elt F) S16x1024 .f32) //
      ∀ (E : Set ℕ) (K : PUnit → sProp 𝕄),
        iprop(owns (c : Thread nD τ) arg4 fullShare x2 ∗ owns (c : Thread nD τ) arg5 fullShare x3 ∗ owns (c : Thread nD τ) arg13 fullShare xs
            ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg4 fullShare x2 ∗ owns (c : Thread nD τ) arg5 fullShare x3 ∗ (∃ f, arg13.view.loc (c : Thread nD τ) ↦[arg13.view.set]{fullShare} arg13.view.writes (Elt F) f LS)
                ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f2, %hf2, H2⟩, ⟨%f3, %hf3, H3⟩, ⟨%fs, %hfs, HS⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg4.eq_unread hf2; obtain rfl := harg5.eq_unread hf3; obtain rfl := harg13.eq_unread hfs
    obtain rfl := harg6.eq_unread hf4; obtain rfl := harg7.eq_unread hf5; obtain rfl := harg8.eq_unread hf6
    sl_exec (disch := first | exact h1 | exact h2 | exact h3 | exact h4)
    sl_step
    iapply Hk
    isplitl [H2]
    · iexists _; isplitr; · ipureintro; exact harg4.read_unread _
      iexact H2
    isplitl [H3]
    · iexists _; isplitr; · ipureintro; exact harg5.read_unread _
      iexact H3
    isplitl [HS]; · iexists _; iexact HS
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact H10

end Cert.KernelIdeal.Snn

end
-- ==== Proof.Ideal.Data.lean ====
/-
  What the kernel's run leaves, point by point. The accumulator after point t is defined by recursion on t: at the
  first step of a tile it is what the clearing and the first product leave, at every later step what that step's
  product leaves over what the point before left. The four result buffers are named at the last step of each tile
  (the only points that store into them and the only ones that write them back). The proof data of the pipeline
  follow: every operand window's buffer holds its block of the operand array at every point; the invariant carries
  the accumulator; the last delay row's array is read by two windows, each holding half of it.
-/
import proofs.«106548_j23527830848088_2_alg».proof.Proof.Ideal.RunFirst
import proofs.«106548_j23527830848088_2_alg».proof.Proof.Ideal.RunRecurrent
import proofs.«106548_j23527830848088_2_alg».proof.Proof.Ideal.RunExternal
import proofs.«106548_j23527830848088_2_alg».proof.Proof.Ideal.RunLast

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: @main has no line before the call. -/
abbrev V (c : Dev nD) (b : Ref sig .tc) : Buf (Elt F) ((c : Thread nD τ).loc b) := m ((c : Thread nD τ).loc b)

/-- Window w's block of its array at point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The four steps at a point -/

abbrev firstAt (c : Dev nD) (t : Fin cfg0.N) (h : t.val % 6 = 0) :=
  stepFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    ((isFirst_iff t).mpr (by omega)) ((isRecurrent_iff t).mpr (by omega)) (fun h' => by have := (isExternal_iff t).mp h'; omega) (fun h' => by have := (isLast_iff t).mp h'; omega)
    (iblk m c 0 t) (iblk m c 1 t)

abbrev recurrentAt (c : Dev nD) (t : Fin cfg0.N) (h0 : ¬ t.val % 6 = 0) (h : t.val % 6 < 4) (xs : Vec F S16x1024 .f32) :=
  stepRecurrent (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    (fun h' => by have := (isFirst_iff t).mp h'; omega) ((isRecurrent_iff t).mpr (by omega)) (fun h' => by have := (isExternal_iff t).mp h'; omega) (fun h' => by have := (isLast_iff t).mp h'; omega)
    (iblk m c 0 t) (iblk m c 1 t) xs

abbrev externalAt (c : Dev nD) (t : Fin cfg0.N) (h : t.val % 6 = 4) (xs : Vec F S16x1024 .f32) :=
  stepExternal (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    (fun h' => by have := (isFirst_iff t).mp h'; omega) (fun h' => by have := (isRecurrent_iff t).mp h'; omega) ((isExternal_iff t).mpr (by omega)) (fun h' => by have := (isLast_iff t).mp h'; omega)
    (iblk m c 2 t) (iblk m c 3 t) xs

abbrev lastAt (c : Dev nD) (t : Fin cfg0.N) (h : t.val % 6 = 5) (xs : Vec F S16x1024 .f32) :=
  stepLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _)
    (fun h' => by have := (isFirst_iff t).mp h'; omega) (fun h' => by have := (isRecurrent_iff t).mp h'; omega) ((isExternal_iff t).mpr (by omega)) ((isLast_iff t).mpr (by omega))
    (iblk m c 2 t) (iblk m c 3 t) xs (iblk m c 4 t) (iblk m c 5 t) (iblk m c 6 t)

/-- A list of stores into the accumulator, read back. -/
abbrev rdAcc (L : List (View.Piece (Elt F) S16x1024 .f32)) : Vec F S16x1024 .f32 := accV.read (Elt F) (accV.writes (Elt F) accV.junk L)

/-! Every step's stores cover the accumulator (each stores it whole). -/
theorem first_cover (c : Dev nD) (t : Fin cfg0.N) (h : t.val % 6 = 0) (y : S16x1024.Idx) :
    ∃ pc ∈ (firstAt m c t h).1, y ∈ pc.1.set :=
  View.cover_of_tiledL (firstAt m c t h).1 S16x1024.size (by sl_kernel_rfl) y
theorem recurrent_cover (c : Dev nD) (t : Fin cfg0.N) (h0 : ¬ t.val % 6 = 0) (h : t.val % 6 < 4) (xs : Vec F S16x1024 .f32) (y : S16x1024.Idx) :
    ∃ pc ∈ (recurrentAt m c t h0 h xs).1, y ∈ pc.1.set :=
  View.cover_of_tiledL (recurrentAt m c t h0 h xs).1 S16x1024.size (by sl_kernel_rfl) y
theorem external_cover (c : Dev nD) (t : Fin cfg0.N) (h : t.val % 6 = 4) (xs : Vec F S16x1024 .f32) (y : S16x1024.Idx) :
    ∃ pc ∈ (externalAt m c t h xs).1, y ∈ pc.1.set :=
  View.cover_of_tiledL (externalAt m c t h xs).1 S16x1024.size (by sl_kernel_rfl) y
theorem last_cover (c : Dev nD) (t : Fin cfg0.N) (h : t.val % 6 = 5) (xs : Vec F S16x1024 .f32) (y : S16x1024.Idx) :
    ∃ pc ∈ (lastAt m c t h xs).2.2.2.2.1, y ∈ pc.1.set :=
  View.cover_of_tiledL (lastAt m c t h xs).2.2.2.2.1 S16x1024.size (by sl_kernel_rfl) y
/-! The last step's stores cover each result buffer: three whole stores, and the delay buffer in a slot and seven slots. -/
theorem last_cover7 (c : Dev nD) (t : Fin cfg0.N) (h : t.val % 6 = 5) (xs : Vec F S16x1024 .f32) (y : S16x1024.Idx) :
    ∃ pc ∈ (lastAt m c t h xs).1, y ∈ pc.1.set :=
  View.cover_of_tiledL (lastAt m c t h xs).1 S16x1024.size (by sl_kernel_rfl) y
theorem last_cover8 (c : Dev nD) (t : Fin cfg0.N) (h : t.val % 6 = 5) (xs : Vec F S16x1024 .f32) (y : S16x1024.Idx) :
    ∃ pc ∈ (lastAt m c t h xs).2.1, y ∈ pc.1.set :=
  View.cover_of_tiledL (lastAt m c t h xs).2.1 S16x1024.size (by sl_kernel_rfl) y
theorem last_cover9 (c : Dev nD) (t : Fin cfg0.N) (h : t.val % 6 = 5) (xs : Vec F S16x1024 .f32) (y : S16x1024.Idx) :
    ∃ pc ∈ (lastAt m c t h xs).2.2.1, y ∈ pc.1.set :=
  View.cover_of_tiledL (lastAt m c t h xs).2.2.1 S16x1024.size (by sl_kernel_rfl) y
theorem last_cover10 (c : Dev nD) (t : Fin cfg0.N) (h : t.val % 6 = 5) (xs : Vec F S16x1024 .f32) (y : S8x16x1024.Idx) :
    ∃ pc ∈ (lastAt m c t h xs).2.2.2.1, y ∈ pc.1.set :=
  View.cover_of_tiledBy (lastAt m c t h xs).2.2.2.1 ![1, 16, 1024] (by sl_kernel_rfl) y

/-! ## The accumulator after each point -/

/-- The accumulator after point n: by recursion on the point. -/
def accAt (c : Dev nD) : (n : ℕ) → n < cfg0.N → Vec F S16x1024 .f32
  | 0, hn => rdAcc (firstAt m c ⟨0, hn⟩ (Nat.zero_mod _)).1
  | n + 1, hn =>
    if h0 : (n + 1) % 6 = 0 then rdAcc (firstAt m c ⟨n + 1, hn⟩ h0).1
    else if h3 : (n + 1) % 6 < 4 then rdAcc (recurrentAt m c ⟨n + 1, hn⟩ h0 h3 (accAt c n (Nat.lt_of_succ_lt hn))).1
    else if h5 : (n + 1) % 6 = 5 then rdAcc (lastAt m c ⟨n + 1, hn⟩ h5 (accAt c n (Nat.lt_of_succ_lt hn))).2.2.2.2.1
    else rdAcc (externalAt m c ⟨n + 1, hn⟩ (by show (n + 1) % 6 = 4; omega) (accAt c n (Nat.lt_of_succ_lt hn))).1

/-- The accumulator the point before left (at the first point: a placeholder nothing reads). -/
abbrev accBefore (c : Dev nD) (t : Fin cfg0.N) : Vec F S16x1024 .f32 :=
  accAt m c (t.val - 1) (Nat.lt_of_le_of_lt (Nat.sub_le _ _) t.isLt)

theorem accAt_first (c : Dev nD) (t : Fin cfg0.N) (h : t.val % 6 = 0) :
    accAt m c t.val t.isLt = rdAcc (firstAt m c t h).1 := by
  obtain ⟨n, hn⟩ := t
  cases n with
  | zero => rfl
  | succ n => exact (dif_pos h).trans rfl

theorem accAt_recurrent (c : Dev nD) (t : Fin cfg0.N) (h0 : ¬ t.val % 6 = 0) (h3 : t.val % 6 < 4) :
    accAt m c t.val t.isLt = rdAcc (recurrentAt m c t h0 h3 (accBefore m c t)).1 := by
  obtain ⟨n, hn⟩ := t
  cases n with
  | zero => exact absurd (Nat.zero_mod _) h0
  | succ n => exact (dif_neg h0).trans ((dif_pos h3).trans rfl)

theorem accAt_external (c : Dev nD) (t : Fin cfg0.N) (h4 : t.val % 6 = 4) :
    accAt m c t.val t.isLt = rdAcc (externalAt m c t h4 (accBefore m c t)).1 := by
  obtain ⟨n, hn⟩ := t
  cases n with
  | zero => exact absurd (show 0 % 6 = 4 from h4) (by decide)
  | succ n =>
    have h0 : ¬ (n + 1) % 6 = 0 := by (try dsimp only at h4); omega
    have h3 : ¬ (n + 1) % 6 < 4 := by (try dsimp only at h4); omega
    have h5 : ¬ (n + 1) % 6 = 5 := by (try dsimp only at h4); omega
    exact (dif_neg h0).trans ((dif_neg h3).trans ((dif_neg h5).trans rfl))

theorem accAt_last (c : Dev nD) (t : Fin cfg0.N) (h5 : t.val % 6 = 5) :
    accAt m c t.val t.isLt = rdAcc (lastAt m c t h5 (accBefore m c t)).2.2.2.2.1 := by
  obtain ⟨n, hn⟩ := t
  cases n with
  | zero => exact absurd (show 0 % 6 = 5 from h5) (by decide)
  | succ n =>
    have h0 : ¬ (n + 1) % 6 = 0 := by (try dsimp only at h5); omega
    have h3 : ¬ (n + 1) % 6 < 4 := by (try dsimp only at h5); omega
    exact (dif_neg h0).trans ((dif_neg h3).trans ((dif_pos h5).trans rfl))

/-! ## The result buffers after the last step of a tile -/

def out7At (c : Dev nD) (t : Fin cfg0.N) : Vec F S16x1024 .f32 :=
  if h : t.val % 6 = 5 then outV7.read (Elt F) (outV7.writes (Elt F) outV7.junk (lastAt m c t h (accBefore m c t)).1) else outV7.read (Elt F) outV7.junk
def out8At (c : Dev nD) (t : Fin cfg0.N) : Vec F S16x1024 .f32 :=
  if h : t.val % 6 = 5 then outV8.read (Elt F) (outV8.writes (Elt F) outV8.junk (lastAt m c t h (accBefore m c t)).2.1) else outV8.read (Elt F) outV8.junk
def out9At (c : Dev nD) (t : Fin cfg0.N) : Vec F S16x1024 .f32 :=
  if h : t.val % 6 = 5 then outV9.read (Elt F) (outV9.writes (Elt F) outV9.junk (lastAt m c t h (accBefore m c t)).2.2.1) else outV9.read (Elt F) outV9.junk
def out10At (c : Dev nD) (t : Fin cfg0.N) : Vec F S8x16x1024 .f32 :=
  if h : t.val % 6 = 5 then outV10.read (Elt F) (outV10.writes (Elt F) outV10.junk (lastAt m c t h (accBefore m c t)).2.2.2.1) else outV10.read (Elt F) outV10.junk

/-! ## The invariant: the accumulator -/

/-- Before the first point the accumulator holds anything; before any later point, what the point before left. -/
def PhiAcc (c : Dev nD) : (n : ℕ) → n ≤ cfg0.N → sProp 𝕄
  | 0, _ => Pipeline.scopedRest spec0 c
  | n + 1, hn => owns (c : Thread nD τ) accM fullShare (accAt m c n hn)

theorem PhiAcc_zero (c : Dev nD) (n : ℕ) (h : n ≤ cfg0.N) (hz : n = 0) : PhiAcc m c n h = Pipeline.scopedRest spec0 c := by
  subst hz; rfl
theorem PhiAcc_succ (c : Dev nD) (n : ℕ) (hn : n < cfg0.N) :
    PhiAcc m c (n + 1) hn = owns (c : Thread nD τ) accM fullShare (accAt m c n hn) := rfl
theorem PhiAcc_pos (c : Dev nD) (n : ℕ) (h : n ≤ cfg0.N) (hz : n ≠ 0) :
    PhiAcc m c n h = owns (c : Thread nD τ) accM fullShare (accAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7At m c t
    | ⟨8, _⟩ => out8At m c t
    | ⟨9, _⟩ => out9At m c t
    | ⟨10, _⟩ => out10At m c t
  Φ t := PhiAcc m c t.val (Nat.le_of_lt_succ t.isLt)
  q w := match w with
    | ⟨0, _⟩ => fullShare.left
    | ⟨1, _⟩ => fullShare
    | ⟨2, _⟩ => fullShare
    | ⟨3, _⟩ => fullShare
    | ⟨4, _⟩ => fullShare
    | ⟨5, _⟩ => fullShare
    | ⟨6, _⟩ => fullShare.right
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem PhiAcc_castSucc (c : Dev nD) (t : Fin cfg0.N) :
    (dats m 0 c).Φ t.castSucc = PhiAcc m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7At m c t := by dsimp only [dats]
theorem after_8 (c : Dev nD) (t : Fin cfg0.N) : (dats m 0 c).after 8 t = out8At m c t := by dsimp only [dats]
theorem after_9 (c : Dev nD) (t : Fin cfg0.N) : (dats m 0 c).after 9 t = out9At m c t := by dsimp only [dats]
theorem after_10 (c : Dev nD) (t : Fin cfg0.N) : (dats m 0 c).after 10 t = out10At m c t := by dsimp only [dats]

/-! Every operand window's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

end Cert.KernelIdeal.Snn

end
-- ==== Proof.Ideal.Body.lean ====
/-
  The body obligation. At a point the body is handed the accumulator at what the point before left (at anything
  before the first point), every operand window's buffer at its block, and the result buffers; which of the four
  steps it runs is decided by the point's residue mod 6. Each step's run leaves the operand buffers as found and
  the accumulator at the step's stores; the last step also fills the four result buffers. At the other points the
  result buffers are idle: handed back as found, and not written back.
-/
import proofs.«106548_j23527830848088_2_alg».proof.Proof.Ideal.Data

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem liveIn_0 : ∀ t : Fin cfg0.N, cfg0.idle 0 (grid0.coords t) = false := fun _ => rfl
theorem liveIn_1 : ∀ t : Fin cfg0.N, cfg0.idle 1 (grid0.coords t) = false := fun _ => rfl
theorem liveIn_2 : ∀ t : Fin cfg0.N, cfg0.idle 2 (grid0.coords t) = false := fun _ => rfl
theorem liveIn_3 : ∀ t : Fin cfg0.N, cfg0.idle 3 (grid0.coords t) = false := fun _ => rfl
theorem liveIn_4 : ∀ t : Fin cfg0.N, cfg0.idle 4 (grid0.coords t) = false := fun _ => rfl
theorem liveIn_5 : ∀ t : Fin cfg0.N, cfg0.idle 5 (grid0.coords t) = false := fun _ => rfl
theorem liveIn_6 : ∀ t : Fin cfg0.N, cfg0.idle 6 (grid0.coords t) = false := fun _ => rfl

theorem leaves_in_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveIn_0 t], after_0]
theorem leaves_in_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveIn_1 t], after_1]
theorem leaves_in_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveIn_2 t], after_2]
theorem leaves_in_3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveIn_3 t], after_3]
theorem leaves_in_4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveIn_4 t], after_4]
theorem leaves_in_5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveIn_5 t], after_5]
theorem leaves_in_6 (c : Dev nD) (t : Fin cfg0.N) :
    (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [liveIn_6 t], after_6]

theorem leaves_out_7 (c : Dev nD) (t : Fin cfg0.N) (h5 : t.val % 6 = 5) :
    (dats m 0 c).leavesExact 7 t = owns (c : Thread nD τ) (ms7 t) fullShare (outV7.read (Elt F) (outV7.writes (Elt F) outV7.junk (lastAt m c t h5 (accBefore m c t)).1)) := by
  rw [show (dats m 0 c).leavesExact 7 t = owns (c : Thread nD τ) (ms7 t) fullShare ((dats m 0 c).after 7 t) from by
    unfold Dat.leavesExact; rw [live_7 t h5], after_7]
  unfold out7At; rw [dif_pos h5]
theorem leaves_out_8 (c : Dev nD) (t : Fin cfg0.N) (h5 : t.val % 6 = 5) :
    (dats m 0 c).leavesExact 8 t = owns (c : Thread nD τ) (ms8 t) fullShare (outV8.read (Elt F) (outV8.writes (Elt F) outV8.junk (lastAt m c t h5 (accBefore m c t)).2.1)) := by
  rw [show (dats m 0 c).leavesExact 8 t = owns (c : Thread nD τ) (ms8 t) fullShare ((dats m 0 c).after 8 t) from by
    unfold Dat.leavesExact; rw [live_8 t h5], after_8]
  unfold out8At; rw [dif_pos h5]
theorem leaves_out_9 (c : Dev nD) (t : Fin cfg0.N) (h5 : t.val % 6 = 5) :
    (dats m 0 c).leavesExact 9 t = owns (c : Thread nD τ) (ms9 t) fullShare (outV9.read (Elt F) (outV9.writes (Elt F) outV9.junk (lastAt m c t h5 (accBefore m c t)).2.2.1)) := by
  rw [show (dats m 0 c).leavesExact 9 t = owns (c : Thread nD τ) (ms9 t) fullShare ((dats m 0 c).after 9 t) from by
    unfold Dat.leavesExact; rw [live_9 t h5], after_9]
  unfold out9At; rw [dif_pos h5]
theorem leaves_out_10 (c : Dev nD) (t : Fin cfg0.N) (h5 : t.val % 6 = 5) :
    (dats m 0 c).leavesExact 10 t = owns (c : Thread nD τ) (ms10 t) fullShare (outV10.read (Elt F) (outV10.writes (Elt F) outV10.junk (lastAt m c t h5 (accBefore m c t)).2.2.2.1)) := by
  rw [show (dats m 0 c).leavesExact 10 t = owns (c : Thread nD τ) (ms10 t) fullShare ((dats m 0 c).after 10 t) from by
    unfold Dat.leavesExact; rw [live_10 t h5], after_10]
  unfold out10At; rw [dif_pos h5]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiAcc m c (t.val + 1) t.isLt from rfl, PhiAcc_succ]
  rw [leaves_in_0, leaves_in_1, leaves_in_2, leaves_in_3, leaves_in_4, leaves_in_5, leaves_in_6]
  have hN : t.val < 48 := lt_of_lt_of_eq t.isLt (show cfg0.N = 48 from N_0)
  by_cases h0 : t.val % 6 = 0
  · rw [Dat.leavesExact_idle (dats m 0 c) 7 t (idle_7 t (by omega)) (noFlush_7 t (by omega)),
        Dat.leavesExact_idle (dats m 0 c) 8 t (idle_8 t (by omega)) (noFlush_8 t (by omega)),
        Dat.leavesExact_idle (dats m 0 c) 9 t (idle_9 t (by omega)) (noFlush_9 t (by omega)),
        Dat.leavesExact_idle (dats m 0 c) 10 t (idle_10 t (by omega)) (noFlush_10 t (by omega))]
    rw [accAt_first m c t h0]
    by_cases hz : t.val = 0
    · rw [PhiAcc_castSucc m c t, PhiAcc_zero m c _ _ hz, scopedRest_acc]
      iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
      iapply ((firstAt m c t h0).2 Set.univ _)
      isplitl [H0]; · iexact H0
      isplitl [H1]; · iexact H1
      isplitl [HS]; · iexact HS
      iintro ⟨H0, H1, ⟨%es, HS⟩⟩
      isplitl [HS]
      · unfold owns; iexists _; isplitr
        swap; · iexact HS
        ipureintro; exact View.read_writes_of_cover _ _ _ _ _ (first_cover m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [PhiAcc_castSucc m c t, PhiAcc_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
      iapply ((firstAt m c t h0).2 Set.univ _)
      isplitl [H0]; · iexact H0
      isplitl [H1]; · iexact H1
      isplitl [HS]; · iexists _; iexact HS
      iintro ⟨H0, H1, ⟨%es, HS⟩⟩
      isplitl [HS]
      · unfold owns; iexists _; isplitr
        swap; · iexact HS
        ipureintro; exact View.read_writes_of_cover _ _ _ _ _ (first_cover m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun h => h0 (by rw [h])
    by_cases h3 : t.val % 6 < 4
    · rw [Dat.leavesExact_idle (dats m 0 c) 7 t (idle_7 t (by omega)) (noFlush_7 t (by omega)),
        Dat.leavesExact_idle (dats m 0 c) 8 t (idle_8 t (by omega)) (noFlush_8 t (by omega)),
        Dat.leavesExact_idle (dats m 0 c) 9 t (idle_9 t (by omega)) (noFlush_9 t (by omega)),
        Dat.leavesExact_idle (dats m 0 c) 10 t (idle_10 t (by omega)) (noFlush_10 t (by omega))]
      rw [accAt_recurrent m c t h0 h3]
      rw [PhiAcc_castSucc m c t, PhiAcc_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
      iapply ((recurrentAt m c t h0 h3 (accBefore m c t)).2 Set.univ _)
      isplitl [H0]; · iexact H0
      isplitl [H1]; · iexact H1
      isplitl [HS]; · iexact HS
      iintro ⟨H0, H1, ⟨%es, HS⟩⟩
      isplitl [HS]
      · unfold owns; iexists _; isplitr
        swap; · iexact HS
        ipureintro; exact View.read_writes_of_cover _ _ _ _ _ (recurrent_cover m c t h0 h3 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · by_cases h5 : t.val % 6 = 5
      · rw [leaves_out_7 m c t h5, leaves_out_8 m c t h5, leaves_out_9 m c t h5, leaves_out_10 m c t h5]
        rw [accAt_last m c t h5]
        rw [PhiAcc_castSucc m c t, PhiAcc_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((lastAt m c t h5 (accBefore m c t)).2.2.2.2.2 Set.univ _)
        isplitl [H2]; · iexact H2
        isplitl [H3]; · iexact H3
        isplitl [HS]; · iexact HS
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        iintro ⟨H2, H3, ⟨%es, HS⟩, H4, H5, H6, ⟨%e7, H7⟩, ⟨%e8, H8⟩, ⟨%e9, H9⟩, ⟨%e10, H10⟩⟩
        isplitl [HS]
        · unfold owns; iexists _; isplitr
          swap; · iexact HS
          ipureintro; exact View.read_writes_of_cover _ _ _ _ _ (last_cover m c t h5 _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (last_cover7 m c t h5 _)
        isplitl [H8]
        · unfold owns; iexists _; isplitr
          swap; · iexact H8
          ipureintro; exact View.read_writes_of_cover _ _ _ _ _ (last_cover8 m c t h5 _)
        isplitl [H9]
        · unfold owns; iexists _; isplitr
          swap; · iexact H9
          ipureintro; exact View.read_writes_of_cover _ _ _ _ _ (last_cover9 m c t h5 _)
        unfold owns; iexists _; isplitr
        swap; · iexact H10
        ipureintro; exact View.read_writes_of_cover _ _ _ _ _ (last_cover10 m c t h5 _)
      · have h4 : t.val % 6 = 4 := by omega
        rw [Dat.leavesExact_idle (dats m 0 c) 7 t (idle_7 t (by omega)) (noFlush_7 t (by omega)),
        Dat.leavesExact_idle (dats m 0 c) 8 t (idle_8 t (by omega)) (noFlush_8 t (by omega)),
        Dat.leavesExact_idle (dats m 0 c) 9 t (idle_9 t (by omega)) (noFlush_9 t (by omega)),
        Dat.leavesExact_idle (dats m 0 c) 10 t (idle_10 t (by omega)) (noFlush_10 t (by omega))]
        rw [accAt_external m c t h4]
        rw [PhiAcc_castSucc m c t, PhiAcc_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩, H7, H8, H9, H10⟩
        iapply ((externalAt m c t h4 (accBefore m c t)).2 Set.univ _)
        isplitl [H2]; · iexact H2
        isplitl [H3]; · iexact H3
        isplitl [HS]; · iexact HS
        iintro ⟨H2, H3, ⟨%es, HS⟩⟩
        isplitl [HS]
        · unfold owns; iexists _; isplitr
          swap; · iexact HS
          ipureintro; exact View.read_writes_of_cover _ _ _ _ _ (external_cover m c t h4 _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Snn

end
-- ==== Proof.Ideal.Run.lean ====
/-
  The launch. The pallas_call hands one array, the delay buffer, to two operand windows (its last row, and its
  column tile); both only read it, so the array's buffer is split between them, half each, and every other array
  is held whole by its one window. With that split, the body obligation and the accumulator as the invariant,
  the library's launch theorem for windows sharing arrays gives the run: every weakly fair execution of @main
  terminates, nothing faults, and every windowed array ends at what the write-backs leave; an operand array is
  never written, so it ends as it began.
-/
import proofs.«106548_j23527830848088_2_alg».proof.Proof.Ideal.Body

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the pipeline's rounds algebra. -/
def u₀ : UR sig nD τ := initOf (Pipeline.cells cfgs cellOf_inj) (Pipeline.launchToks cfgs cellOf_inj)

theorem share_0 (c : Dev nD) : (dats m 0 c).share 0 = fullShare.left := rfl
theorem share_1 (c : Dev nD) : (dats m 0 c).share 1 = fullShare := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare.right := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl

/-- The windowed arrays as points-tos of the buffers behind them, each at its window's share. -/
theorem arrays_pts (c : Dev nD) (G : (w : Fin cfg0.W) → Buf (Elt F) ((cfg0.win w).arr.view.loc (c : Thread nD τ))) :
    (dats m 0 c).arrays G = bigSep Finset.univ fun w : Fin 11 => (((c : Thread nD τ).loc (Pipeline.arrRef spec0 w)) ↦{(dats m 0 c).share w} G w : sProp 𝕄) := by
  unfold Dat.arrays
  exact bigSep_congr fun w _ => by rw [(arr_whole0 w).set_eq_univ]

/-- The ten distinct buffers behind the eleven windows, one by one. -/
theorem arrBufs_list (c : Dev nD) :
    (Pipeline.arrBufs spec0 c (V m c) : sProp 𝕄)
      = iprop((((c : Thread nD τ).loc main_arg2) ↦{fullShare} V m c main_arg2) ∗ (((c : Thread nD τ).loc main_arg4) ↦{fullShare} V m c main_arg4) ∗ (((c : Thread nD τ).loc main_arg3) ↦{fullShare} V m c main_arg3) ∗ (((c : Thread nD τ).loc main_arg5) ↦{fullShare} V m c main_arg5) ∗ (((c : Thread nD τ).loc main_arg0) ↦{fullShare} V m c main_arg0) ∗ (((c : Thread nD τ).loc main_arg1) ↦{fullShare} V m c main_arg1) ∗ (((c : Thread nD τ).loc main_v0_0) ↦{fullShare} V m c main_v0_0) ∗ (((c : Thread nD τ).loc main_v0_1) ↦{fullShare} V m c main_v0_1) ∗ (((c : Thread nD τ).loc main_v0_2) ↦{fullShare} V m c main_v0_2) ∗ (((c : Thread nD τ).loc main_v0_3) ↦{fullShare} V m c main_v0_3)) := by
  unfold Pipeline.arrBufs
  exact bigSep_eq_bigSepL_of_eq [main_arg2, main_arg4, main_arg3, main_arg5, main_arg0, main_arg1, main_v0_0, main_v0_1, main_v0_2, main_v0_3] (by decide) (by decide) _

/-- The ten distinct buffers behind the eleven windows, each whole, are the windows' arrays at their shares: the
    delay buffer's is halved between the two windows that read it. -/
theorem hsplit (c : Dev nD) :
    (Pipeline.arrBufs spec0 c (V m c) : sProp 𝕄) ⊢ (dats m 0 c).arrays ((dats m 0 c).arrAt · 0) := by
  rw [arrays_pts, bigSep_W0]
  simp only [share_0, share_1, share_2, share_3, share_4, share_5, share_6, share_7, share_8, share_9, share_10]
  rw [arrBufs_list]
  iintro ⟨H2, H4, H3, H5, H0, H1, O0, O1, O2, O3⟩
  ihave H2' := (pointsTo_share (PosShare.mem_left_op_right fullShare)).1 $$ H2
  icases H2' with ⟨H2l, H2r⟩
  isplitl [H2l]; · iexact H2l
  isplitl [H4]; · iexact H4
  isplitl [H3]; · iexact H3
  isplitl [H5]; · iexact H5
  isplitl [H0]; · iexact H0
  isplitl [H1]; · iexact H1
  isplitl [H2r]; · iexact H2r
  isplitl [O0]; · iexact O0
  isplitl [O1]; · iexact O1
  isplitl [O2]; · iexact O2
  iexact O3

/-- Before the first point the accumulator holds anything: the launch's scoped rest is the invariant there. -/
theorem phi_in (c : Dev nD) : iprop(emp ∗ Pipeline.scopedRest spec0 c) ⊢ (dats m 0 c).Φ 0 := by
  rw [show (dats m 0 c).Φ 0 = Pipeline.scopedRest spec0 c from rfl]
  iintro ⟨-, H⟩; iexact H

/-- After the last point the accumulator's contents are forgotten. -/
theorem phi_out (c : Dev nD) : (dats m 0 c).Φ (Fin.last cfg0.N) ⊢ iprop(emp ∗ Pipeline.scopedRest spec0 c) := by
  rw [show (dats m 0 c).Φ (Fin.last cfg0.N) = PhiAcc m c (Fin.last cfg0.N).val (Nat.le_of_lt_succ (Fin.last cfg0.N).isLt) from rfl,
    PhiAcc_pos m c _ _ (by rw [Fin.val_last]; have : cfg0.N = 48 := N_0; omega), scopedRest_acc]
  iintro H; isplitr; · iempintro
  iexists _; iexact H

/-- The run's post: every windowed array at what the write-backs leave. -/
def Final : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
theorem run_main : θ_run defs (onTc (τ := τ) (main (F := F))) (s₀ m ρ) (Final m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := phi_in m) (hout := phi_out m)
    (QY := fun _ _ => True)
    (hY := fun c s' => by
      iintro ⟨-, -, HSI⟩; imodintro
      isplitr; · ipureintro; trivial
      iexact HSI)
    (hQ := fun _ h c w => (h c).1 w)

/-- info: 'Cert.KernelIdeal.Snn.run_main' depends on axioms: [propext, Classical.choice, Quot.sound] -/
#guard_msgs in #print axioms run_main

/-- The frame: the program runs and its six argument arrays end unchanged (each is an operand window's array). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c 4).trans ((dats m 0 c).arrAt_in 4 rfl _), (h c 5).trans ((dats m 0 c).arrAt_in 5 rfl _),
     (h c 0).trans ((dats m 0 c).arrAt_in 0 rfl _), (h c 2).trans ((dats m 0 c).arrAt_in 2 rfl _),
     (h c 1).trans ((dats m 0 c).arrAt_in 1 rfl _), (h c 3).trans ((dats m 0 c).arrAt_in 3 rfl _)⟩) (run_main m ρ)

end Cert.KernelIdeal.Snn

end
-- ==== Proof.Ideal.Pieces.lean ====
/-
  What each step's stores are, over the printed payloads. The first step leaves the accumulator at the first
  product added to the cleared block; a later step at its product added to what the accumulator held; the last step
  leaves the spikes, the new adaptation and the new potential in their buffers as the printed pointwise terms of
  the tile's blocks and the finished accumulator, and the delay buffer as two pieces: slot 0 the spikes, slots
  1..7 the old block's slots 0..6.
-/
import proofs.«106548_j23527830848088_2_alg».proof.Proof.Ideal.Data
import Idealize.ShloMosaic.Lib.Pipeline.Value

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2 : (![0, 0] : Fin 2 → Nat) = fun _ => 0 := funext fun a => by fin_cases a <;> rfl
theorem off3 : (![0, 0, 0] : Fin 3 → Nat) = fun _ => 0 := funext fun a => by fin_cases a <;> rfl

theorem first_acc (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : isFirst i) (h2 : isRecurrent i) (h3 : ¬isExternal i) (h4 : ¬isLast i)
    (x0 : Vec F S1x16x2048 .f32) (x1 : Vec F S2048x1024 .f32) :
    View.canon (stepFirst c i arg2 harg2 arg3 harg3 arg4 harg4 arg5 harg5 arg6 harg6 arg7 harg7 arg8 harg8 arg9 harg9 arg10 harg10 arg11 harg11 arg12 harg12 arg13 harg13 h1 h2 h3 h4 x0 x1).1 = k0_pay2 (k0_pay1 (F := F)) x0 x1 := by
  unfold stepFirst
  dsimp only
  sl_unfold_words
  rw [View.canon_cons_unit_zero off2]
  simp only [View.readCov_unit_zero (S := S16x1024) _ off2, View.readAt_eq_ld, harg2.read_unread, harg3.read_unread,
    View.ld_unit_zero (S := S1x16x2048) off3, View.ld_unit_zero (S := S2048x1024) off2]

theorem recurrent_acc (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : isRecurrent i) (h3 : ¬isExternal i) (h4 : ¬isLast i)
    (x0 : Vec F S1x16x2048 .f32) (x1 : Vec F S2048x1024 .f32) (xs : Vec F S16x1024 .f32) :
    View.canon (stepRecurrent c i arg2 harg2 arg3 harg3 arg4 harg4 arg5 harg5 arg6 harg6 arg7 harg7 arg8 harg8 arg9 harg9 arg10 harg10 arg11 harg11 arg12 harg12 arg13 harg13 h1 h2 h3 h4 x0 x1 xs).1 = k0_pay2 xs x0 x1 := by
  unfold stepRecurrent
  dsimp only
  sl_unfold_words
  rw [View.canon_unit_zero off2]
  simp only [View.readAt_eq_ld, harg2.read_unread, harg3.read_unread, harg13.read_unread,
    View.ld_unit_zero (S := S1x16x2048) off3, View.ld_unit_zero (S := S2048x1024) off2, View.ld_unit_zero (S := S16x1024) off2]

theorem external_acc (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : ¬isLast i)
    (x2 : Vec F S16x2048 .f32) (x3 : Vec F S2048x1024 .f32) (xs : Vec F S16x1024 .f32) :
    View.canon (stepExternal c i arg2 harg2 arg3 harg3 arg4 harg4 arg5 harg5 arg6 harg6 arg7 harg7 arg8 harg8 arg9 harg9 arg10 harg10 arg11 harg11 arg12 harg12 arg13 harg13 h1 h2 h3 h4 x2 x3 xs).1 = k0_pay3 xs x2 x3 := by
  unfold stepExternal
  dsimp only
  sl_unfold_words
  rw [View.canon_unit_zero off2]
  simp only [View.readAt_eq_ld, harg4.read_unread, harg5.read_unread, harg13.read_unread,
    View.ld_unit_zero (S := S16x2048) off2, View.ld_unit_zero (S := S2048x1024) off2, View.ld_unit_zero (S := S16x1024) off2]

theorem last_acc (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    View.canon (stepLast c i arg2 harg2 arg3 harg3 arg4 harg4 arg5 harg5 arg6 harg6 arg7 harg7 arg8 harg8 arg9 harg9 arg10 harg10 arg11 harg11 arg12 harg12 arg13 harg13 h1 h2 h3 h4 x2 x3 xs x4 x5 x6).2.2.2.2.1 = k0_pay3 xs x2 x3 := by
  unfold stepLast
  dsimp only
  sl_unfold_words
  rw [View.canon_unit_zero off2]
  simp only [View.readCov_unit_zero (S := S16x1024) _ off2, View.readAt_eq_ld, harg4.read_unread, harg5.read_unread, harg13.read_unread, harg6.read_unread, harg7.read_unread, harg8.read_unread,
    View.ld_unit_zero (S := S16x2048) off2, View.ld_unit_zero (S := S2048x1024) off2, View.ld_unit_zero (S := S16x1024) off2]

theorem last_out7 (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    View.canon (stepLast c i arg2 harg2 arg3 harg3 arg4 harg4 arg5 harg5 arg6 harg6 arg7 harg7 arg8 harg8 arg9 harg9 arg10 harg10 arg11 harg11 arg12 harg12 arg13 harg13 h1 h2 h3 h4 x2 x3 xs x4 x5 x6).1 = k0_pay4 x4 x5 := by
  unfold stepLast
  dsimp only
  sl_unfold_words
  rw [View.canon_unit_zero off2]
  simp only [View.readCov_unit_zero (S := S16x1024) _ off2, View.readAt_eq_ld, harg4.read_unread, harg5.read_unread, harg13.read_unread, harg6.read_unread, harg7.read_unread, harg8.read_unread,
    View.ld_unit_zero (S := S16x2048) off2, View.ld_unit_zero (S := S2048x1024) off2, View.ld_unit_zero (S := S16x1024) off2]

theorem last_out8 (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    View.canon (stepLast c i arg2 harg2 arg3 harg3 arg4 harg4 arg5 harg5 arg6 harg6 arg7 harg7 arg8 harg8 arg9 harg9 arg10 harg10 arg11 harg11 arg12 harg12 arg13 harg13 h1 h2 h3 h4 x2 x3 xs x4 x5 x6).2.1 = k0_pay6 x4 x5 (k0_pay3 xs x2 x3) := by
  unfold stepLast
  dsimp only
  sl_unfold_words
  rw [View.canon_unit_zero off2]
  simp only [View.readCov_unit_zero (S := S16x1024) _ off2, View.readAt_eq_ld, harg4.read_unread, harg5.read_unread, harg13.read_unread, harg6.read_unread, harg7.read_unread, harg8.read_unread,
    View.ld_unit_zero (S := S16x2048) off2, View.ld_unit_zero (S := S2048x1024) off2, View.ld_unit_zero (S := S16x1024) off2]

theorem last_out9 (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    View.canon (stepLast c i arg2 harg2 arg3 harg3 arg4 harg4 arg5 harg5 arg6 harg6 arg7 harg7 arg8 harg8 arg9 harg9 arg10 harg10 arg11 harg11 arg12 harg12 arg13 harg13 h1 h2 h3 h4 x2 x3 xs x4 x5 x6).2.2.1 = k0_pay5 x4 x5 := by
  unfold stepLast
  dsimp only
  sl_unfold_words
  rw [View.canon_unit_zero off2]
  simp only [View.readCov_unit_zero (S := S16x1024) _ off2, View.readAt_eq_ld, harg4.read_unread, harg5.read_unread, harg13.read_unread, harg6.read_unread, harg7.read_unread, harg8.read_unread,
    View.ld_unit_zero (S := S16x2048) off2, View.ld_unit_zero (S := S2048x1024) off2, View.ld_unit_zero (S := S16x1024) off2]

theorem last_out10 (c : Dev nD) (i : grid0.Coords) (arg2 : Memref sig .tc .vmem S1x16x2048 .f32) (harg2 : arg2.IsWhole) (arg3 : Memref sig .tc .vmem S2048x1024 .f32) (harg3 : arg3.IsWhole) (arg4 : Memref sig .tc .vmem S16x2048 .f32) (harg4 : arg4.IsWhole) (arg5 : Memref sig .tc .vmem S2048x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S8x16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (arg12 : Memref sig .tc .vmem S8x16x1024 .f32) (harg12 : arg12.IsWhole) (arg13 : Memref sig .tc .vmem S16x1024 .f32) (harg13 : arg13.IsWhole)
    (h1 : ¬isFirst i) (h2 : ¬isRecurrent i) (h3 : isExternal i) (h4 : isLast i)
    (x2 : Vec F S16x2048 .f32) (x3 : Vec F S2048x1024 .f32) (xs : Vec F S16x1024 .f32)
    (x4 : Vec F S16x1024 .f32) (x5 : Vec F S16x1024 .f32) (x6 : Vec F S8x16x1024 .f32) :
    View.canon (stepLast c i arg2 harg2 arg3 harg3 arg4 harg4 arg5 harg5 arg6 harg6 arg7 harg7 arg8 harg8 arg9 harg9 arg10 harg10 arg11 harg11 arg12 harg12 arg13 harg13 h1 h2 h3 h4 x2 x3 xs x4 x5 x6).2.2.2.1
      = View.canon [(⟨Rect.unit ![1, 0, 0] S7x16x1024.size inb_S8x16x1024_S7x16x1024_1_0_0,
            View.ld x6 (Rect.unit ![0, 0, 0] S7x16x1024.size inb_S8x16x1024_S7x16x1024_0_0_0)⟩ : View.Piece (Elt F) S8x16x1024 .f32),
          ⟨Rect.unit ![0, 0, 0] S1x16x1024.size inb_S8x16x1024_S1x16x1024_0_0_0, k0_pay7 x4 x5⟩] := by
  unfold stepLast
  dsimp only
  sl_unfold_words
  simp only [View.readCov_unit_zero (S := S16x1024) _ off2, View.readAt_eq_ld, harg4.read_unread, harg5.read_unread, harg13.read_unread, harg6.read_unread, harg7.read_unread, harg8.read_unread,
    View.ld_unit_zero (S := S16x2048) off2, View.ld_unit_zero (S := S2048x1024) off2, View.ld_unit_zero (S := S16x1024) off2]

end Cert.KernelIdeal.Snn

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.Ideal.Products.lean ====
/-
  The accumulator's three printed terms read at an entry, over the extended reals. The cleared block is 0 at every
  entry. A recurrent step adds, at entry (a, q), the sum over the 2048 contracted positions j of the delay row's
  block at (a, j) times the recurrent weights' block at (j, q); an external step the same with the external spikes'
  block and the external weights' block. The matrix unit's product into a zero accumulator is that plain sum.
-/
import proofs.«106548_j23527830848088_2_alg».proof.Proof.Gen.KernelIdeal.Skeleton
import proofs.«106548_j23527830848088_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Snn

open Idealize.ShloMosaic Idealize.ShloMosaic.ValueIdx
open Cert.KernelIdeal Cert.KernelIdeal.Gen

/-- The kernel's contraction is the plain one: rows by contracted positions times contracted positions by columns. -/
theorem dims_plain : dot_S16x2048_S2048x1024_S16x1024_1_0_0_1_n_n = DotDims.plain 16 2048 1024 := rfl

theorem product_apply (A : FVec Ideal S16x2048 .f32) (B : FVec Ideal S2048x1024 .f32) (a : Fin 16) (q : Fin 1024) :
    matmul (F := Ideal) dot_S16x2048_S2048x1024_S16x1024_1_0_0_1_n_n none A B (constant (F := Ideal) S16x1024 .f32 0x00000000#32) (ix2 a q)
      = ∑ j : Fin 2048, A (ix2 a j) * B (ix2 j q) := by
  rw [dims_plain]
  exact Cert.Lib.matmul_plain_zero_apply none A B a q

theorem cleared_apply (y : S16x1024.Idx) : k0_pay1 (F := Ideal) y = 0 := by
  unfold k0_pay1
  rw [shapeCast_self]
  exact Ideal.ofBits_zero_f32

theorem recurrent_apply (acc : Vec Ideal S16x1024 .f32) (x0 : Vec Ideal S1x16x2048 .f32) (x1 : Vec Ideal S2048x1024 .f32)
    (a : Fin 16) (q : Fin 1024) :
    k0_pay2 (F := Ideal) acc x0 x1 (ix2 a q) = acc (ix2 a q) + ∑ j : Fin 2048, x0 (ix3 (0 : Fin 1) a j) * x1 (ix2 j q) := by
  unfold k0_pay2
  rw [shapeCast_self]
  show (acc (ix2 a q) : EReal) + (matmul (F := Ideal) dot_S16x2048_S2048x1024_S16x1024_1_0_0_1_n_n none (shapeCast S16x2048 x0 shapeCasts_S1x16x2048_S16x2048) x1 (constant (F := Ideal) S16x1024 .f32 0x00000000#32)) (ix2 a q) = _
  rw [product_apply]
  refine congrArg (fun s : EReal => (acc (ix2 a q) : EReal) + s) (Finset.sum_congr rfl fun j _ => ?_)
  rw [shapeCast_1ab_ab_apply]

theorem external_apply (acc : Vec Ideal S16x1024 .f32) (x2 : Vec Ideal S16x2048 .f32) (x3 : Vec Ideal S2048x1024 .f32)
    (a : Fin 16) (q : Fin 1024) :
    k0_pay3 (F := Ideal) acc x2 x3 (ix2 a q) = acc (ix2 a q) + ∑ j : Fin 2048, x2 (ix2 a j) * x3 (ix2 j q) := by
  unfold k0_pay3
  rw [shapeCast_self]
  show (acc (ix2 a q) : EReal) + (matmul (F := Ideal) dot_S16x2048_S2048x1024_S16x1024_1_0_0_1_n_n none x2 x3 (constant (F := Ideal) S16x1024 .f32 0x00000000#32)) (ix2 a q) = _
  rw [product_apply]

/-- The spikes laid into slot 0 of the delay block. -/
theorem slot0_apply (x4 x5 : Vec Ideal S16x1024 .f32) (u : Fin 1) (a : Fin 16) (q : Fin 1024) :
    k0_pay7 (F := Ideal) x4 x5 (ix3 u a q) = k0_pay4 (F := Ideal) x4 x5 (ix2 a q) := by
  unfold k0_pay7
  exact shapeCast_ab_1ab_apply _ _ u a q

end Cert.KernelIdeal.Snn

end
-- ==== Proof.Ideal.Tile.lean ====
/-
  The accumulator when a column tile's last step has run. A tile's six points are consecutive; unrolling the
  recursion, the accumulator is the six printed terms nested in order: the cleared block, the four recurrent
  products, the two external products. Over the extended reals, at entry (a, q) that is the six sums over the 2048
  contracted positions added in order to 0.
-/
import proofs.«106548_j23527830848088_2_alg».proof.Proof.Ideal.Pieces
import proofs.«106548_j23527830848088_2_alg».proof.Proof.Ideal.Products

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The operand blocks at a point, at their printed shapes. -/
abbrev rowBlk (c : Dev nD) (t : Fin cfg0.N) : Vec F S1x16x2048 .f32 := iblk m c 0 t
abbrev recBlk (c : Dev nD) (t : Fin cfg0.N) : Vec F S2048x1024 .f32 := iblk m c 1 t
abbrev extBlk (c : Dev nD) (t : Fin cfg0.N) : Vec F S16x2048 .f32 := iblk m c 2 t
abbrev wextBlk (c : Dev nD) (t : Fin cfg0.N) : Vec F S2048x1024 .f32 := iblk m c 3 t
abbrev potBlk (c : Dev nD) (t : Fin cfg0.N) : Vec F S16x1024 .f32 := iblk m c 4 t
abbrev adaBlk (c : Dev nD) (t : Fin cfg0.N) : Vec F S16x1024 .f32 := iblk m c 5 t
abbrev delayBlk (c : Dev nD) (t : Fin cfg0.N) : Vec F S8x16x1024 .f32 := iblk m c 6 t

/-- Stores into the accumulator read back are the canonical contents of the list. -/
theorem rdAcc_canon (L : List (View.Piece (Elt F) S16x1024 .f32)) : rdAcc (F := F) L = View.canon L :=
  View.read_writes_junk_eq_canon _ L

theorem acc_first (c : Dev nD) (t : Fin cfg0.N) (h : t.val % 6 = 0) :
    accAt m c t.val t.isLt = k0_pay2 (k0_pay1 (F := F)) (iblk m c 0 t) (iblk m c 1 t) := by
  rw [accAt_first m c t h, rdAcc_canon]; apply first_acc
theorem acc_recurrent (c : Dev nD) (t : Fin cfg0.N) (h0 : ¬ t.val % 6 = 0) (h3 : t.val % 6 < 4) :
    accAt m c t.val t.isLt = k0_pay2 (accBefore m c t) (iblk m c 0 t) (iblk m c 1 t) := by
  rw [accAt_recurrent m c t h0 h3, rdAcc_canon]; apply recurrent_acc
theorem acc_external (c : Dev nD) (t : Fin cfg0.N) (h4 : t.val % 6 = 4) :
    accAt m c t.val t.isLt = k0_pay3 (accBefore m c t) (iblk m c 2 t) (iblk m c 3 t) := by
  rw [accAt_external m c t h4, rdAcc_canon]; apply external_acc
theorem acc_last (c : Dev nD) (t : Fin cfg0.N) (h5 : t.val % 6 = 5) :
    accAt m c t.val t.isLt = k0_pay3 (accBefore m c t) (iblk m c 2 t) (iblk m c 3 t) := by
  rw [accAt_last m c t h5, rdAcc_canon]; apply last_acc

/-- Step k of column tile n. -/
def pt (n : Fin 8) (k : ℕ) (hk : k < 6) : Fin cfg0.N := ⟨6 * n.val + k, by rw [show cfg0.N = 48 from N_0]; omega⟩
theorem pt_val (n : Fin 8) (k : ℕ) (hk : k < 6) : (pt n k hk).val = 6 * n.val + k := rfl
theorem pt_mod (n : Fin 8) (k : ℕ) (hk : k < 6) : (pt n k hk).val % 6 = k := by rw [pt_val]; omega
theorem pt_div (n : Fin 8) (k : ℕ) (hk : k < 6) : (pt n k hk).val / 6 = n.val := by rw [pt_val]; omega
/-- Every point is a step of a tile. -/
theorem eq_pt (t : Fin cfg0.N) : t = pt ⟨t.val / 6, by have h48 : t.val < 48 := lt_of_lt_of_eq t.isLt N_0; omega⟩ (t.val % 6) (Nat.mod_lt _ (by decide)) :=
  Fin.ext (by rw [pt_val]; show t.val = 6 * (t.val / 6) + t.val % 6; omega)

theorem acc_tile (c : Dev nD) (n : Fin 8) :
    accAt m c (pt n 5 (by omega)).val (pt n 5 (by omega)).isLt = (k0_pay3 (k0_pay3 (k0_pay2 (k0_pay2 (k0_pay2 (k0_pay2 (k0_pay1 (F := F)) (iblk m c 0 (pt n 0 (by omega))) (iblk m c 1 (pt n 0 (by omega)))) (iblk m c 0 (pt n 1 (by omega))) (iblk m c 1 (pt n 1 (by omega)))) (iblk m c 0 (pt n 2 (by omega))) (iblk m c 1 (pt n 2 (by omega)))) (iblk m c 0 (pt n 3 (by omega))) (iblk m c 1 (pt n 3 (by omega)))) (iblk m c 2 (pt n 4 (by omega))) (iblk m c 3 (pt n 4 (by omega)))) (iblk m c 2 (pt n 5 (by omega))) (iblk m c 3 (pt n 5 (by omega)))) := by
  have e5 : accBefore m c (pt n 5 (by omega)) = accAt m c (pt n 4 (by omega)).val (pt n 4 (by omega)).isLt := rfl
  have e4 : accBefore m c (pt n 4 (by omega)) = accAt m c (pt n 3 (by omega)).val (pt n 3 (by omega)).isLt := rfl
  have e3 : accBefore m c (pt n 3 (by omega)) = accAt m c (pt n 2 (by omega)).val (pt n 2 (by omega)).isLt := rfl
  have e2 : accBefore m c (pt n 2 (by omega)) = accAt m c (pt n 1 (by omega)).val (pt n 1 (by omega)).isLt := rfl
  have e1 : accBefore m c (pt n 1 (by omega)) = accAt m c (pt n 0 (by omega)).val (pt n 0 (by omega)).isLt := rfl
  rw [acc_last m c (pt n 5 (by omega)) (pt_mod n 5 _), e5,
    acc_external m c (pt n 4 (by omega)) (pt_mod n 4 _), e4,
    acc_recurrent m c (pt n 3 (by omega)) (by rw [pt_mod]; omega) (by rw [pt_mod]; omega), e3,
    acc_recurrent m c (pt n 2 (by omega)) (by rw [pt_mod]; omega) (by rw [pt_mod]; omega), e2,
    acc_recurrent m c (pt n 1 (by omega)) (by rw [pt_mod]; omega) (by rw [pt_mod]; omega), e1,
    acc_first m c (pt n 0 (by omega)) (pt_mod n 0 _)]

end Cert.KernelIdeal.Snn

namespace Cert.KernelIdeal.Snn

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The finished accumulator at entry (a, q): six sums added in order to 0. -/
theorem acc_tile_apply (c : Dev nD) (n : Fin 8) (a : Fin 16) (q : Fin 1024) :
    accAt m c (pt n 5 (by omega)).val (pt n 5 (by omega)).isLt (ix2 a q)
      = (((((0 + ∑ j : Fin 2048, rowBlk m c (pt n 0 (by omega)) (ix3 (0 : Fin 1) a j) * recBlk m c (pt n 0 (by omega)) (ix2 j q))
          + ∑ j : Fin 2048, rowBlk m c (pt n 1 (by omega)) (ix3 (0 : Fin 1) a j) * recBlk m c (pt n 1 (by omega)) (ix2 j q))
          + ∑ j : Fin 2048, rowBlk m c (pt n 2 (by omega)) (ix3 (0 : Fin 1) a j) * recBlk m c (pt n 2 (by omega)) (ix2 j q))
          + ∑ j : Fin 2048, rowBlk m c (pt n 3 (by omega)) (ix3 (0 : Fin 1) a j) * recBlk m c (pt n 3 (by omega)) (ix2 j q))
          + ∑ j : Fin 2048, extBlk m c (pt n 4 (by omega)) (ix2 a j) * wextBlk m c (pt n 4 (by omega)) (ix2 j q))
          + ∑ j : Fin 2048, extBlk m c (pt n 5 (by omega)) (ix2 a j) * wextBlk m c (pt n 5 (by omega)) (ix2 j q) := by
  rw [acc_tile]
  rw [external_apply, external_apply, recurrent_apply, recurrent_apply, recurrent_apply, recurrent_apply, cleared_apply]

end Cert.KernelIdeal.Snn

end
-- ==== Proof.Ideal.Blocks.lean ====
/-
  Which entries of the arrays a point's blocks hold. The printed index maps, decided over the 48 points: at a point
  of column tile n and step k the delay row's window is at slot 7 and column block min k 3, the recurrent weights'
  at row block min k 3 and column tile n, the external spikes' at column block k - 4 (0 before step 4), the
  external weights' at row block k - 4 and column tile n; the potential's, the adaptation's, the delay buffer's and
  the four results' windows are at column tile n. A block's entry is the array's entry at block index times block
  extent plus the position inside the block, coordinate by coordinate.
-/
import proofs.«106548_j23527830848088_2_alg».proof.Proof.Ideal.Tile

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem idx_0 : ∀ t : Fin cfg0.N, win0_0.index t (0 : Fin 3) = 7 ∧ win0_0.index t (1 : Fin 3) = 0 ∧ win0_0.index t (2 : Fin 3) = min (t.val % 6) 3 :=
  (by decide +kernel : ∀ t : Fin grid0.N, win0_0.index t (0 : Fin 3) = 7 ∧ win0_0.index t (1 : Fin 3) = 0 ∧ win0_0.index t (2 : Fin 3) = min (t.val % 6) 3)
theorem idx_1 : ∀ t : Fin cfg0.N, win0_1.index t (0 : Fin 2) = min (t.val % 6) 3 ∧ win0_1.index t (1 : Fin 2) = t.val / 6 :=
  (by decide +kernel : ∀ t : Fin grid0.N, win0_1.index t (0 : Fin 2) = min (t.val % 6) 3 ∧ win0_1.index t (1 : Fin 2) = t.val / 6)
theorem idx_2 : ∀ t : Fin cfg0.N, win0_2.index t (0 : Fin 2) = 0 ∧ win0_2.index t (1 : Fin 2) = t.val % 6 - 4 :=
  (by decide +kernel : ∀ t : Fin grid0.N, win0_2.index t (0 : Fin 2) = 0 ∧ win0_2.index t (1 : Fin 2) = t.val % 6 - 4)
theorem idx_3 : ∀ t : Fin cfg0.N, win0_3.index t (0 : Fin 2) = t.val % 6 - 4 ∧ win0_3.index t (1 : Fin 2) = t.val / 6 :=
  (by decide +kernel : ∀ t : Fin grid0.N, win0_3.index t (0 : Fin 2) = t.val % 6 - 4 ∧ win0_3.index t (1 : Fin 2) = t.val / 6)
theorem idx_4 : ∀ t : Fin cfg0.N, win0_4.index t (0 : Fin 2) = 0 ∧ win0_4.index t (1 : Fin 2) = t.val / 6 :=
  (by decide +kernel : ∀ t : Fin grid0.N, win0_4.index t (0 : Fin 2) = 0 ∧ win0_4.index t (1 : Fin 2) = t.val / 6)
theorem idx_5 : ∀ t : Fin cfg0.N, win0_5.index t (0 : Fin 2) = 0 ∧ win0_5.index t (1 : Fin 2) = t.val / 6 :=
  (by decide +kernel : ∀ t : Fin grid0.N, win0_5.index t (0 : Fin 2) = 0 ∧ win0_5.index t (1 : Fin 2) = t.val / 6)
theorem idx_7 : ∀ t : Fin cfg0.N, win0_7.index t (0 : Fin 2) = 0 ∧ win0_7.index t (1 : Fin 2) = t.val / 6 :=
  (by decide +kernel : ∀ t : Fin grid0.N, win0_7.index t (0 : Fin 2) = 0 ∧ win0_7.index t (1 : Fin 2) = t.val / 6)
theorem idx_8 : ∀ t : Fin cfg0.N, win0_8.index t (0 : Fin 2) = 0 ∧ win0_8.index t (1 : Fin 2) = t.val / 6 :=
  (by decide +kernel : ∀ t : Fin grid0.N, win0_8.index t (0 : Fin 2) = 0 ∧ win0_8.index t (1 : Fin 2) = t.val / 6)
theorem idx_9 : ∀ t : Fin cfg0.N, win0_9.index t (0 : Fin 2) = 0 ∧ win0_9.index t (1 : Fin 2) = t.val / 6 :=
  (by decide +kernel : ∀ t : Fin grid0.N, win0_9.index t (0 : Fin 2) = 0 ∧ win0_9.index t (1 : Fin 2) = t.val / 6)
theorem idx_6 : ∀ t : Fin cfg0.N, win0_6.index t (0 : Fin 3) = 0 ∧ win0_6.index t (1 : Fin 3) = 0 ∧ win0_6.index t (2 : Fin 3) = t.val / 6 :=
  (by decide +kernel : ∀ t : Fin grid0.N, win0_6.index t (0 : Fin 3) = 0 ∧ win0_6.index t (1 : Fin 3) = 0 ∧ win0_6.index t (2 : Fin 3) = t.val / 6)
theorem idx_10 : ∀ t : Fin cfg0.N, win0_10.index t (0 : Fin 3) = 0 ∧ win0_10.index t (1 : Fin 3) = 0 ∧ win0_10.index t (2 : Fin 3) = t.val / 6 :=
  (by decide +kernel : ∀ t : Fin grid0.N, win0_10.index t (0 : Fin 3) = 0 ∧ win0_10.index t (1 : Fin 3) = 0 ∧ win0_10.index t (2 : Fin 3) = t.val / 6)

/-- Two indices with the same coordinates read the same entry. -/
theorem read_congr {S : Shape} {α : Type} (A : S.Idx → α) (i i' : S.Idx) (h : ∀ ax, (i ax).val = (i' ax).val) : A i = A i' :=
  congrArg A (funext fun ax => Fin.ext (h ax))

/-! ## A block's entry is the array's -/

/-- The delay row's block: entry (a, j) is the delay buffer's at slot 7, row a, column 2048 · min k 3 + j. -/
theorem blk0_apply (c : Dev nD) (t : Fin cfg0.N) (u : Fin 1) (a : Fin 16) (j : Fin 2048) (i : S8x16x8192.Idx)
    (h0 : (i 0).val = 7) (h1 : (i 1).val = a.val) (h2 : (i 2).val = min (t.val % 6) 3 * 2048 + j.val) :
    iblk m c 0 t (ix3 u a j) = V m c main_arg2 i := by
  show V m c main_arg2 (((cfg0.win 0).blk t).view.emb (ix3 u a j)) = _
  obtain ⟨e0, e1, e2⟩ := idx_0 t
  refine read_congr _ _ _ fun ax => ?_
  match ax with
  | ⟨0, _⟩ => show win0_0.index t (0 : Fin 3) * 1 + 1 * u.val = (i 0).val; have := u.isLt; omega
  | ⟨1, _⟩ => show win0_0.index t (1 : Fin 3) * 16 + 1 * a.val = (i 1).val; omega
  | ⟨2, _⟩ => show win0_0.index t (2 : Fin 3) * 2048 + 1 * j.val = (i 2).val; omega

/-- The recurrent weights' block: entry (j, q) is the array's at row 2048 · min k 3 + j, column 1024 n + q. -/
theorem blk1_apply (c : Dev nD) (t : Fin cfg0.N) (j : Fin 2048) (q : Fin 1024) (i : S8192x8192.Idx)
    (h0 : (i 0).val = min (t.val % 6) 3 * 2048 + j.val) (h1 : (i 1).val = t.val / 6 * 1024 + q.val) :
    iblk m c 1 t (ix2 j q) = V m c main_arg4 i := by
  show V m c main_arg4 (((cfg0.win 1).blk t).view.emb (ix2 j q)) = _
  obtain ⟨e0, e1⟩ := idx_1 t
  refine read_congr _ _ _ fun ax => ?_
  match ax with
  | ⟨0, _⟩ => show win0_1.index t (0 : Fin 2) * 2048 + 1 * j.val = (i 0).val; omega
  | ⟨1, _⟩ => show win0_1.index t (1 : Fin 2) * 1024 + 1 * q.val = (i 1).val; omega

/-- The external spikes' block: entry (a, j) is the array's at row a, column 2048 · (k - 4) + j. -/
theorem blk2_apply (c : Dev nD) (t : Fin cfg0.N) (a : Fin 16) (j : Fin 2048) (i : S16x4096.Idx)
    (h0 : (i 0).val = a.val) (h1 : (i 1).val = (t.val % 6 - 4) * 2048 + j.val) :
    iblk m c 2 t (ix2 a j) = V m c main_arg3 i := by
  show V m c main_arg3 (((cfg0.win 2).blk t).view.emb (ix2 a j)) = _
  obtain ⟨e0, e1⟩ := idx_2 t
  refine read_congr _ _ _ fun ax => ?_
  match ax with
  | ⟨0, _⟩ => show win0_2.index t (0 : Fin 2) * 16 + 1 * a.val = (i 0).val; omega
  | ⟨1, _⟩ => show win0_2.index t (1 : Fin 2) * 2048 + 1 * j.val = (i 1).val; omega

/-- The external weights' block: entry (j, q) is the array's at row 2048 · (k - 4) + j, column 1024 n + q. -/
theorem blk3_apply (c : Dev nD) (t : Fin cfg0.N) (j : Fin 2048) (q : Fin 1024) (i : S4096x8192.Idx)
    (h0 : (i 0).val = (t.val % 6 - 4) * 2048 + j.val) (h1 : (i 1).val = t.val / 6 * 1024 + q.val) :
    iblk m c 3 t (ix2 j q) = V m c main_arg5 i := by
  show V m c main_arg5 (((cfg0.win 3).blk t).view.emb (ix2 j q)) = _
  obtain ⟨e0, e1⟩ := idx_3 t
  refine read_congr _ _ _ fun ax => ?_
  match ax with
  | ⟨0, _⟩ => show win0_3.index t (0 : Fin 2) * 2048 + 1 * j.val = (i 0).val; omega
  | ⟨1, _⟩ => show win0_3.index t (1 : Fin 2) * 1024 + 1 * q.val = (i 1).val; omega

/-- The potential's block: entry (a, q) is the array's at row a, column 1024 n + q. -/
theorem blk4_apply (c : Dev nD) (t : Fin cfg0.N) (y : S16x1024.Idx) (i : S16x8192.Idx)
    (h0 : (i 0).val = (y 0).val) (h1 : (i 1).val = t.val / 6 * 1024 + (y 1).val) :
    iblk m c 4 t y = V m c main_arg0 i := by
  show V m c main_arg0 (((cfg0.win 4).blk t).view.emb y) = _
  obtain ⟨e0, e1⟩ := idx_4 t
  refine read_congr _ _ _ fun ax => ?_
  match ax with
  | ⟨0, _⟩ => show win0_4.index t (0 : Fin 2) * 16 + 1 * (y 0).val = (i 0).val; omega
  | ⟨1, _⟩ => show win0_4.index t (1 : Fin 2) * 1024 + 1 * (y 1).val = (i 1).val; omega

/-- The adaptation's block likewise. -/
theorem blk5_apply (c : Dev nD) (t : Fin cfg0.N) (y : S16x1024.Idx) (i : S16x8192.Idx)
    (h0 : (i 0).val = (y 0).val) (h1 : (i 1).val = t.val / 6 * 1024 + (y 1).val) :
    iblk m c 5 t y = V m c main_arg1 i := by
  show V m c main_arg1 (((cfg0.win 5).blk t).view.emb y) = _
  obtain ⟨e0, e1⟩ := idx_5 t
  refine read_congr _ _ _ fun ax => ?_
  match ax with
  | ⟨0, _⟩ => show win0_5.index t (0 : Fin 2) * 16 + 1 * (y 0).val = (i 0).val; omega
  | ⟨1, _⟩ => show win0_5.index t (1 : Fin 2) * 1024 + 1 * (y 1).val = (i 1).val; omega

/-- The delay buffer's column tile: entry (s, a, q) is the array's at slot s, row a, column 1024 n + q. -/
theorem blk6_apply (c : Dev nD) (t : Fin cfg0.N) (y : S8x16x1024.Idx) (i : S8x16x8192.Idx)
    (h0 : (i 0).val = (y 0).val) (h1 : (i 1).val = (y 1).val) (h2 : (i 2).val = t.val / 6 * 1024 + (y 2).val) :
    iblk m c 6 t y = V m c main_arg2 i := by
  show V m c main_arg2 (((cfg0.win 6).blk t).view.emb y) = _
  obtain ⟨e0, e1, e2⟩ := idx_6 t
  refine read_congr _ _ _ fun ax => ?_
  match ax with
  | ⟨0, _⟩ => show win0_6.index t (0 : Fin 3) * 8 + 1 * (y 0).val = (i 0).val; omega
  | ⟨1, _⟩ => show win0_6.index t (1 : Fin 3) * 16 + 1 * (y 1).val = (i 1).val; omega
  | ⟨2, _⟩ => show win0_6.index t (2 : Fin 3) * 1024 + 1 * (y 2).val = (i 2).val; omega

/-! ## Where a result window's block sits -/

theorem emb7_val (t : Fin cfg0.N) (y : S16x1024.Idx) :
    ((((cfg0.win 7).blk t).view.emb y) 0).val = (y 0).val ∧ ((((cfg0.win 7).blk t).view.emb y) 1).val = t.val / 6 * 1024 + (y 1).val := by
  obtain ⟨e0, e1⟩ := idx_7 t
  constructor
  · show win0_7.index t (0 : Fin 2) * 16 + 1 * (y 0).val = (y 0).val; omega
  · show win0_7.index t (1 : Fin 2) * 1024 + 1 * (y 1).val = t.val / 6 * 1024 + (y 1).val; omega
theorem emb8_val (t : Fin cfg0.N) (y : S16x1024.Idx) :
    ((((cfg0.win 8).blk t).view.emb y) 0).val = (y 0).val ∧ ((((cfg0.win 8).blk t).view.emb y) 1).val = t.val / 6 * 1024 + (y 1).val := by
  obtain ⟨e0, e1⟩ := idx_8 t
  constructor
  · show win0_8.index t (0 : Fin 2) * 16 + 1 * (y 0).val = (y 0).val; omega
  · show win0_8.index t (1 : Fin 2) * 1024 + 1 * (y 1).val = t.val / 6 * 1024 + (y 1).val; omega
theorem emb9_val (t : Fin cfg0.N) (y : S16x1024.Idx) :
    ((((cfg0.win 9).blk t).view.emb y) 0).val = (y 0).val ∧ ((((cfg0.win 9).blk t).view.emb y) 1).val = t.val / 6 * 1024 + (y 1).val := by
  obtain ⟨e0, e1⟩ := idx_9 t
  constructor
  · show win0_9.index t (0 : Fin 2) * 16 + 1 * (y 0).val = (y 0).val; omega
  · show win0_9.index t (1 : Fin 2) * 1024 + 1 * (y 1).val = t.val / 6 * 1024 + (y 1).val; omega
theorem emb10_val (t : Fin cfg0.N) (y : S8x16x1024.Idx) :
    ((((cfg0.win 10).blk t).view.emb y) 0).val = (y 0).val ∧ ((((cfg0.win 10).blk t).view.emb y) 1).val = (y 1).val
      ∧ ((((cfg0.win 10).blk t).view.emb y) 2).val = t.val / 6 * 1024 + (y 2).val := by
  obtain ⟨e0, e1, e2⟩ := idx_10 t
  refine ⟨?_, ?_, ?_⟩
  · show win0_10.index t (0 : Fin 3) * 8 + 1 * (y 0).val = (y 0).val; omega
  · show win0_10.index t (1 : Fin 3) * 16 + 1 * (y 1).val = (y 1).val; omega
  · show win0_10.index t (2 : Fin 3) * 1024 + 1 * (y 2).val = t.val / 6 * 1024 + (y 2).val; omega

end Cert.KernelIdeal.Snn

end
-- ==== Proof.LibMaskCentre.lean ====
/-
  Small facts about the extended-real reading of a detection head's mask and of its pixel-centre coordinates.

  * A comparison's one bit, zero-extended to 32 bits and then read as a SIGNED integer, is the bit read as an
    UNSIGNED integer: both are 0 or 1 (`toInt_setWidth_bit`).  So a mask built as
    `sitofp (extui (cmpf …))` and one built as `uitofp (cmpf …)` are the same extended real.
  * For small naturals the 32-bit words of `n`, `a`, `s` satisfy `toInt (n * a + s) = n * a + s`: no wrap
    (`toInt_affine`), and in particular `toInt n = n` (`toInt_ofNat_small`).  So the centre
    `float n * float a + float s` computed in floats over the extended reals is the float of the integer
    `n * a + s` (`centre_eq`).
  * The float words of the powers of two 4 … 128 denote those reals (`ofBits_4` … `ofBits_128`).
-/
import Idealize.ShloMosaic.PureOps.Ideal

noncomputable section

namespace Cert.Lib

open Idealize.ShloMosaic

/-- A one-bit word zero-extended to 32 bits is 0 or 1 whether read signed or unsigned. -/
theorem toInt_setWidth_bit (b : BitVec 1) : ((b.setWidth 32).toInt : ℝ) = ((b.toNat : ℕ) : ℝ) := by
  have h : b = 0#1 ∨ b = 1#1 := by
    have := b.isLt
    rcases Nat.lt_or_ge b.toNat 1 with h | h
    · left; apply BitVec.eq_of_toNat_eq; simp; omega
    · right; apply BitVec.eq_of_toNat_eq; simp; omega
  rcases h with rfl | rfl <;> simp

/-- The 32-bit word of a natural below 2³¹ reads, signed, as that natural. -/
theorem toInt_ofNat_small (n : ℕ) (h : n < 2 ^ 31) : (BitVec.ofNat 32 n).toInt = (n : ℤ) := by
  rw [BitVec.toInt_eq_toNat_cond, BitVec.toNat_ofNat]
  have e : n % 2 ^ 32 = n := Nat.mod_eq_of_lt (by omega)
  rw [e]
  split_ifs with hh
  · rfl
  · exfalso; omega

/-- No wrap: for `n * a + s` below 2³¹ the 32-bit product and sum of the words read, signed, as `n * a + s`. -/
theorem toInt_affine (n a s : ℕ) (h : n * a + s < 2 ^ 31) :
    (BitVec.ofNat 32 n * BitVec.ofNat 32 a + BitVec.ofNat 32 s).toInt = ((n * a + s : ℕ) : ℤ) := by
  rw [← BitVec.ofNat_mul, ← BitVec.ofNat_add]
  exact toInt_ofNat_small _ h

/-- The centre of pixel `n` at stride `a` and offset `s`: computed in floats from the float of `n`, or as the float of the
    integer `n * a + s` — the same real. -/
theorem centre_eq (n a s : ℕ) (hn : n < 2 ^ 31) (h : n * a + s < 2 ^ 31) :
    (((BitVec.ofNat 32 n).toInt : ℝ) : EReal) * ((a : ℝ) : EReal) + ((s : ℝ) : EReal)
      = ((((BitVec.ofNat 32 n * BitVec.ofNat 32 a + BitVec.ofNat 32 s).toInt : ℤ) : ℝ) : EReal) := by
  rw [toInt_affine n a s h, toInt_ofNat_small n hn, ← EReal.coe_mul, ← EReal.coe_add]
  push_cast
  rfl

theorem ofBits_4 : Ideal.ofBits .f32 0x40800000#32 = ((4 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

end Cert.Lib

end
-- ==== Proof.Ideal.Scalars.lean ====
/-
  The step's arithmetic, one entry at a time, over the extended reals. At an entry with membrane potential v,
  adaptation a and input current s: the neuron spikes when v reaches the threshold 1 + 1.8 a (the spike is 1 or 0);
  the new adaptation is a decayed by its constant plus the spike; the new potential is v decayed by its constant,
  reset to 0 on a spike, plus the current times the complementary constant. The kernel's printed pointwise terms
  and the reference's stages are these functions of the entries they read. The kernel builds the spike by widening
  the comparison's bit to 32 bits and reading it signed, the reference by reading the bit unsigned: a bit is 0 or 1
  either way.
-/
import proofs.«106548_j23527830848088_2_alg».proof.Proof.Gen.KernelIdeal.Skeleton
import proofs.«106548_j23527830848088_2_alg».proof.Proof.Gen.ReferenceIdeal.Read
import proofs.«106548_j23527830848088_2_alg».proof.Proof.LibMaskCentre
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Snn

open Idealize.ShloMosaic Idealize.ShloMosaic.ValueIdx
open Cert.KernelIdeal Cert.KernelIdeal.Gen

/-- The threshold at adaptation a. -/
def threshold (a : Ideal .f32) : Ideal .f32 :=
  FloatOps.addf (FloatOps.ofBits .f32 0x3F800000#32) (FloatOps.mulf (FloatOps.ofBits .f32 0x3FE66666#32) a)

/-- The spike: 1 when the potential has reached the threshold, else 0. -/
def spike (v a : Ideal .f32) : Ideal .f32 :=
  FloatOps.uitofp .f32 (FloatOps.cmpf .oge v (threshold a))

/-- The new adaptation. -/
def adapt (v a : Ideal .f32) : Ideal .f32 :=
  FloatOps.addf (FloatOps.mulf (FloatOps.ofBits .f32 0x3F7EB923#32) a) (spike v a)

/-- The new potential, from the input current s. -/
def potential (v a s : Ideal .f32) : Ideal .f32 :=
  FloatOps.addf
    (FloatOps.mulf (FloatOps.mulf (FloatOps.ofBits .f32 0x3F7383C6#32) v) (FloatOps.subf (FloatOps.ofBits .f32 0x3F800000#32) (spike v a)))
    (FloatOps.mulf (FloatOps.ofBits .f32 0x3D47C3A8#32) s)

/-- A bit widened to 32 bits and read signed is the bit read unsigned. -/
theorem signed_wide_bit (b : BitVec 1) :
    (FloatOps.sitofp (F := Ideal) .f32 (b.setWidth 32) : Ideal .f32) = FloatOps.uitofp (F := Ideal) .f32 b :=
  congrArg (fun r : ℝ => (r : EReal)) (Cert.Lib.toInt_setWidth_bit b)

/-! ## The kernel's pointwise terms -/

theorem spikes_apply (x4 x5 : Vec Ideal S16x1024 .f32) (y : S16x1024.Idx) :
    k0_pay4 (F := Ideal) x4 x5 y = spike (x4 y) (x5 y) := by
  unfold k0_pay4 spike threshold
  exact signed_wide_bit _

theorem adapt_apply (x4 x5 : Vec Ideal S16x1024 .f32) (y : S16x1024.Idx) :
    k0_pay5 (F := Ideal) x4 x5 y = adapt (x4 y) (x5 y) := by
  unfold k0_pay5 adapt
  exact congrArg (FloatOps.addf (F := Ideal) _) (spikes_apply x4 x5 y)

theorem potential_apply (x4 x5 acc : Vec Ideal S16x1024 .f32) (y : S16x1024.Idx) :
    k0_pay6 (F := Ideal) x4 x5 acc y = potential (x4 y) (x5 y) (acc y) := by
  unfold k0_pay6 potential
  show FloatOps.addf (F := Ideal) (FloatOps.mulf (F := Ideal) _ (FloatOps.subf (F := Ideal) _ (k0_pay4 (F := Ideal) x4 x5 y))) _ = _
  rw [spikes_apply]
  rfl

/-! ## The reference's stages -/

theorem ref_spikes_apply (x0 x1 : Cert.ReferenceIdeal.S16x8192.Idx → Ideal .f32) (i : Cert.ReferenceIdeal.S16x8192.Idx) :
    Cert.ReferenceIdeal.Read.val_main_v5 (F := Ideal) x0 x1 i = spike (x0 i) (x1 i) := by
  rw [Cert.ReferenceIdeal.Read.val_main_v5_apply, Cert.ReferenceIdeal.Read.val_main_v4_apply, Cert.ReferenceIdeal.Read.val_main_v3_apply,
    Cert.ReferenceIdeal.Read.val_main_v2_apply, Cert.ReferenceIdeal.Read.val_main_cst_0_apply, Cert.ReferenceIdeal.Read.val_main_v1_apply,
    Cert.ReferenceIdeal.Read.val_main_v0_apply, Cert.ReferenceIdeal.Read.val_main_cst_apply]
  rfl

theorem ref_adapt_apply (x0 x1 : Cert.ReferenceIdeal.S16x8192.Idx → Ideal .f32) (i : Cert.ReferenceIdeal.S16x8192.Idx) :
    Cert.ReferenceIdeal.Read.val_main_v8 (F := Ideal) x0 x1 i = adapt (x0 i) (x1 i) := by
  rw [Cert.ReferenceIdeal.Read.val_main_v8_apply, Cert.ReferenceIdeal.Read.val_main_v7_apply, Cert.ReferenceIdeal.Read.val_main_v6_apply,
    Cert.ReferenceIdeal.Read.val_main_cst_1_apply, ref_spikes_apply]
  rfl

theorem ref_potential_apply (x0 x1 : Cert.ReferenceIdeal.S16x8192.Idx → Ideal .f32) (x2 : Cert.ReferenceIdeal.S8x16x8192.Idx → Ideal .f32)
    (x3 : Cert.ReferenceIdeal.S16x4096.Idx → Ideal .f32) (x4 : Cert.ReferenceIdeal.S8192x8192.Idx → Ideal .f32) (x5 : Cert.ReferenceIdeal.S4096x8192.Idx → Ideal .f32)
    (i : Cert.ReferenceIdeal.S16x8192.Idx) :
    Cert.ReferenceIdeal.Read.val_main_v21 (F := Ideal) x0 x1 x2 x3 x4 x5 i
      = potential (x0 i) (x1 i) (Cert.ReferenceIdeal.Read.val_main_v13 (F := Ideal) x2 x3 x4 x5 i) := by
  rw [Cert.ReferenceIdeal.Read.val_main_v21_apply, Cert.ReferenceIdeal.Read.val_main_v18_apply, Cert.ReferenceIdeal.Read.val_main_v15_apply,
    Cert.ReferenceIdeal.Read.val_main_v14_apply, Cert.ReferenceIdeal.Read.val_main_cst_2_apply, Cert.ReferenceIdeal.Read.val_main_v17_apply,
    Cert.ReferenceIdeal.Read.val_main_v16_apply, Cert.ReferenceIdeal.Read.val_main_cst_3_apply, ref_spikes_apply,
    Cert.ReferenceIdeal.Read.val_main_v20_apply, Cert.ReferenceIdeal.Read.val_main_v19_apply, Cert.ReferenceIdeal.Read.val_main_cst_4_apply]
  rfl

end Cert.KernelIdeal.Snn

end
-- ==== Proof.Ideal.FinalSpikes.lean ====
/-
  The spikes and the new adaptation after the run. The last step of column tile n stores, at entry (a, q) of
  each result's block, the spike (or the new adaptation) of the potential and the adaptation at (a, 1024 n + q):
  the reference's stage at that entry. The eight last steps' blocks cover the 8192 columns, so each result array
  ends as the reference's array.
-/
import proofs.«106548_j23527830848088_2_alg».proof.Proof.Ideal.Blocks
import proofs.«106548_j23527830848088_2_alg».proof.Proof.Ideal.Scalars

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The reference's spikes, as the spikes result's array. -/
def refSpikes (c : Dev nD) : Buf (Elt Ideal) ((cfg0.win 7).arr.view.loc (c : Thread nD τ)) :=
  Cert.ReferenceIdeal.Read.val_main_v5 (F := Ideal) (V m c main_arg0) (V m c main_arg1)
/-- The reference's new adaptation, as the adaptation result's array. -/
def refAdapt (c : Dev nD) : Buf (Elt Ideal) ((cfg0.win 9).arr.view.loc (c : Thread nD τ)) :=
  Cert.ReferenceIdeal.Read.val_main_v8 (F := Ideal) (V m c main_arg0) (V m c main_arg1)

theorem flushed7_eq (c : Dev nD) (t : Fin cfg0.N) (h5 : t.val % 6 = 5) :
    (dats m 0 c).flushed 7 t = ((cfg0.win 7).blk t).view.read (Elt Ideal) (refSpikes m c) := by
  show (cfg0.win 7).cut (grid0.coords t) ((dats m 0 c).after 7 t) = _
  rw [after_7]; unfold out7At; rw [dif_pos h5, View.read_writes_junk_eq_canon]
  rw [show View.canon (lastAt m c t h5 (accBefore m c t)).1 = k0_pay4 (potBlk m c t) (adaBlk m c t) from by apply last_out7]
  funext y
  show k0_pay4 (F := Ideal) (potBlk m c t) (adaBlk m c t) y = refSpikes m c (((cfg0.win 7).blk t).view.emb y)
  rw [spikes_apply]; unfold refSpikes; rw [ref_spikes_apply]
  obtain ⟨e0, e1⟩ := emb7_val t y
  rw [show potBlk m c t y = V m c main_arg0 (((cfg0.win 7).blk t).view.emb y) from blk4_apply m c t y _ e0 e1,
    show adaBlk m c t y = V m c main_arg1 (((cfg0.win 7).blk t).view.emb y) from blk5_apply m c t y _ e0 e1]

theorem flushed9_eq (c : Dev nD) (t : Fin cfg0.N) (h5 : t.val % 6 = 5) :
    (dats m 0 c).flushed 9 t = ((cfg0.win 9).blk t).view.read (Elt Ideal) (refAdapt m c) := by
  show (cfg0.win 9).cut (grid0.coords t) ((dats m 0 c).after 9 t) = _
  rw [after_9]; unfold out9At; rw [dif_pos h5, View.read_writes_junk_eq_canon]
  rw [show View.canon (lastAt m c t h5 (accBefore m c t)).2.2.1 = k0_pay5 (potBlk m c t) (adaBlk m c t) from by apply last_out9]
  funext y
  show k0_pay5 (F := Ideal) (potBlk m c t) (adaBlk m c t) y = refAdapt m c (((cfg0.win 9).blk t).view.emb y)
  rw [adapt_apply]; unfold refAdapt; rw [ref_adapt_apply]
  obtain ⟨e0, e1⟩ := emb9_val t y
  rw [show potBlk m c t y = V m c main_arg0 (((cfg0.win 9).blk t).view.emb y) from blk4_apply m c t y _ e0 e1,
    show adaBlk m c t y = V m c main_arg1 (((cfg0.win 9).blk t).view.emb y) from blk5_apply m c t y _ e0 e1]

theorem mem_blk7 (t : Fin cfg0.N) (i : S16x8192.Idx) :
    i ∈ ((cfg0.win 7).blk t).view.set ↔ ∀ a : Fin 2, win0_7.index t a * S16x1024.size a ≤ (i a).val ∧ (i a).val < win0_7.index t a * S16x1024.size a + S16x1024.size a := by
  show i ∈ ((View.whole main_v0_0).slice (win0_7.rect t)).set ↔ _
  rw [View.set_slice_whole, Rect.mem_set_unit]
  exact Iff.rfl

/-- Every entry is in the block of its column tile's last step. -/
theorem cover7 (i : S16x8192.Idx) : ∃ t : Fin cfg0.N, (cfg0.win 7).flush t = true ∧ i ∈ ((cfg0.win 7).blk t).view.set := by
  have hi0 : (i 0).val < 16 := (i 0).isLt
  have hi1 : (i 1).val < 8192 := (i 1).isLt
  refine ⟨pt ⟨(i 1).val / 1024, by omega⟩ 5 (by omega), (flush0_7 _).mpr (pt_mod _ 5 _), ?_⟩
  rw [mem_blk7]
  obtain ⟨e0, e1⟩ := idx_7 (pt ⟨(i 1).val / 1024, by omega⟩ 5 (by omega))
  have e1' : win0_7.index (pt ⟨(i 1).val / 1024, by omega⟩ 5 (by omega)) (1 : Fin 2) = (i 1).val / 1024 := e1.trans (pt_div _ 5 _)
  intro a
  match a with
  | ⟨0, _⟩ =>
    show win0_7.index (pt ⟨(i 1).val / 1024, by omega⟩ 5 (by omega)) (0 : Fin 2) * 16 ≤ (i 0).val ∧ (i 0).val < win0_7.index (pt ⟨(i 1).val / 1024, by omega⟩ 5 (by omega)) (0 : Fin 2) * 16 + 16
    omega
  | ⟨1, _⟩ =>
    show win0_7.index (pt ⟨(i 1).val / 1024, by omega⟩ 5 (by omega)) (1 : Fin 2) * 1024 ≤ (i 1).val ∧ (i 1).val < win0_7.index (pt ⟨(i 1).val / 1024, by omega⟩ 5 (by omega)) (1 : Fin 2) * 1024 + 1024
    omega

theorem mem_blk9 (t : Fin cfg0.N) (i : S16x8192.Idx) :
    i ∈ ((cfg0.win 9).blk t).view.set ↔ ∀ a : Fin 2, win0_9.index t a * S16x1024.size a ≤ (i a).val ∧ (i a).val < win0_9.index t a * S16x1024.size a + S16x1024.size a := by
  show i ∈ ((View.whole main_v0_2).slice (win0_9.rect t)).set ↔ _
  rw [View.set_slice_whole, Rect.mem_set_unit]
  exact Iff.rfl

/-- Every entry is in the block of its column tile's last step. -/
theorem cover9 (i : S16x8192.Idx) : ∃ t : Fin cfg0.N, (cfg0.win 9).flush t = true ∧ i ∈ ((cfg0.win 9).blk t).view.set := by
  have hi0 : (i 0).val < 16 := (i 0).isLt
  have hi1 : (i 1).val < 8192 := (i 1).isLt
  refine ⟨pt ⟨(i 1).val / 1024, by omega⟩ 5 (by omega), (flush0_9 _).mpr (pt_mod _ 5 _), ?_⟩
  rw [mem_blk9]
  obtain ⟨e0, e1⟩ := idx_9 (pt ⟨(i 1).val / 1024, by omega⟩ 5 (by omega))
  have e1' : win0_9.index (pt ⟨(i 1).val / 1024, by omega⟩ 5 (by omega)) (1 : Fin 2) = (i 1).val / 1024 := e1.trans (pt_div _ 5 _)
  intro a
  match a with
  | ⟨0, _⟩ =>
    show win0_9.index (pt ⟨(i 1).val / 1024, by omega⟩ 5 (by omega)) (0 : Fin 2) * 16 ≤ (i 0).val ∧ (i 0).val < win0_9.index (pt ⟨(i 1).val / 1024, by omega⟩ 5 (by omega)) (0 : Fin 2) * 16 + 16
    omega
  | ⟨1, _⟩ =>
    show win0_9.index (pt ⟨(i 1).val / 1024, by omega⟩ 5 (by omega)) (1 : Fin 2) * 1024 ≤ (i 1).val ∧ (i 1).val < win0_9.index (pt ⟨(i 1).val / 1024, by omega⟩ 5 (by omega)) (1 : Fin 2) * 1024 + 1024
    omega

/-- The spikes array after the run is the reference's. -/
theorem final7 (c : Dev nD) : (dats m 0 c).arrAt 7 cfg0.N = refSpikes m c :=
  (dats m 0 c).arrAt_eq_of_cover 7 (refSpikes m c) (fun t hf => flushed7_eq m c t ((flush0_7 t).mp hf)) cover7
/-- The adaptation array after the run is the reference's. -/
theorem final9 (c : Dev nD) : (dats m 0 c).arrAt 9 cfg0.N = refAdapt m c :=
  (dats m 0 c).arrAt_eq_of_cover 9 (refAdapt m c) (fun t hf => flushed9_eq m c t ((flush0_9 t).mp hf)) cover9

end Cert.KernelIdeal.Snn

end
-- ==== Proof.LibRsqrtBlocks.lean ====
/-
  Two general facts about the extended reals, with no program in sight.

  * `Cert.Lib.mul_rsqrt_eq_div_sqrt`: at the ideal instance, a value times the reciprocal square root of `v` is the value
    divided by the square root of `v`, for EVERY extended real value and every `0 < v ≤ +∞` (at `v = +∞` both sides are
    `0`). With `Cert.Lib.mul_self_nonneg` (a square is nonnegative, infinite values included) this joins a normaliser
    written `(x − mean) · rsqrt (var + ε)` to one written `(x − mean) / sqrt (var + ε)` without any finiteness: a variance
    is a sum of squares over a positive real, so `var + ε > 0` for `ε > 0`.
  * `Cert.Lib.sum_blocks` / `Cert.Lib.sum_div_mod`: a sum over `N = a · b` consecutive indices is the double sum over `a`
    blocks of `b` (`Cert.Lib.blockEquiv a b : Fin a × Fin b ≃ Fin N`, `(i, j) ↦ i · b + j`, inverse `k ↦ (k / b, k % b)`):
    a contraction accumulated block by block over a grid axis against one whole contraction, or heads laid side by
    side against the concatenated lanes. Stated for sums in the extended reals; only commutativity and associativity
    of `+` are used.

  Imports only the ideal instance's operations.
-/
import Idealize.ShloMosaic.PureOps.Ideal

noncomputable section

open scoped BigOperators

namespace Cert.Lib

open Idealize.ShloMosaic

/-- A square is nonnegative on the extended reals: `(±∞)·(±∞) = +∞`. -/
theorem mul_self_nonneg (y : EReal) : 0 ≤ y * y := by
  induction y using EReal.rec with
  | bot => simp [EReal.bot_mul_bot]
  | top => simp [EReal.top_mul_top]
  | coe r => rw [← EReal.coe_mul]; exact_mod_cast _root_.mul_self_nonneg r

/-- Times the reciprocal square root is over the square root, for every `x` and every `0 < v ≤ +∞`. -/
theorem mul_rsqrt_eq_div_sqrt (x v : EReal) (hv : 0 < v) : x * Ideal.rsqrt v = Ideal.div x (Ideal.sqrt v) := by
  induction v using EReal.rec with
  | bot => exact absurd hv (by simp)
  | top =>
    show x * (0 : EReal) = Ideal.div x ⊤
    rw [mul_zero, Ideal.div, if_neg EReal.top_ne_zero, EReal.inv_top, mul_zero]
  | coe r =>
    have hr : 0 < r := by exact_mod_cast hv
    have hs : Real.sqrt r ≠ 0 := (Real.sqrt_pos.mpr hr).ne'
    have hs' : ((Real.sqrt r : ℝ) : EReal) ≠ 0 := by exact_mod_cast hs
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div, if_neg hs', EReal.coe_inv]

/-! ## A long sum as blocks -/

/-- `a` blocks of `b` consecutive indices. -/
def blockEquiv {N : ℕ} (a b : ℕ) (hb : 0 < b) (hN : N = a * b) : Fin a × Fin b ≃ Fin N where
  toFun p := ⟨p.1.val * b + p.2.val, by
    subst hN
    calc p.1.val * b + p.2.val < p.1.val * b + b := Nat.add_lt_add_left p.2.isLt _
      _ = (p.1.val + 1) * b := (Nat.succ_mul _ _).symm
      _ ≤ a * b := Nat.mul_le_mul_right _ p.1.isLt⟩
  invFun k := (⟨k.val / b, (Nat.div_lt_iff_lt_mul hb).mpr (hN ▸ k.isLt)⟩, ⟨k.val % b, Nat.mod_lt _ hb⟩)
  left_inv p := by
    refine Prod.ext (Fin.ext ?_) (Fin.ext ?_)
    · show (p.1.val * b + p.2.val) / b = p.1.val
      rw [Nat.add_comm, Nat.add_mul_div_right _ _ hb, Nat.div_eq_of_lt p.2.isLt, Nat.zero_add]
    · show (p.1.val * b + p.2.val) % b = p.2.val
      rw [Nat.add_comm, Nat.add_mul_mod_self_right, Nat.mod_eq_of_lt p.2.isLt]
  right_inv k := Fin.ext (Nat.div_add_mod' k.val b)

/-- A sum over `a · b` consecutive indices, block by block. -/
theorem sum_blocks {N : ℕ} (a b : ℕ) (hb : 0 < b) (hN : N = a * b) (f : Fin N → EReal) :
    ∑ k, f k = ∑ i : Fin a, ∑ j : Fin b, f (blockEquiv a b hb hN (i, j)) := by
  rw [← (blockEquiv a b hb hN).sum_comp, Fintype.sum_prod_type]

/-- The same with the summand written over (block, position): `k` is in block `k / b` at position `k % b`. -/
theorem sum_div_mod {N : ℕ} (a b : ℕ) (hb : 0 < b) (hN : N = a * b) (g : Fin a → Fin b → EReal) :
    ∑ k : Fin N, g ((blockEquiv a b hb hN).symm k).1 ((blockEquiv a b hb hN).symm k).2 = ∑ i : Fin a, ∑ j : Fin b, g i j := by
  rw [sum_blocks a b hb hN]
  refine Finset.sum_congr rfl fun i _ => Finset.sum_congr rfl fun j _ => ?_
  rw [Equiv.symm_apply_apply]

end Cert.Lib

end
-- ==== Proof.Ideal.Regroup.lean ====
/-
  The one law that joins the two sides. The kernel adds six products, one per step, in order, to a cleared
  accumulator: four over consecutive blocks of 2048 of the 8192 recurrent positions, two over consecutive blocks
  of 2048 of the 4096 external positions. The reference adds one sum over all 8192 to one sum over all 4096. A sum
  over consecutive indices is the sum of its blocks' sums, and addition on the extended reals is commutative and
  associative with 0 neutral (infinite terms allowed), so the two agree.
-/
import proofs.«106548_j23527830848088_2_alg».proof.Proof.LibRsqrtBlocks

noncomputable section

open scoped BigOperators

namespace Cert.KernelIdeal.Snn

/-- Position j of block k of 2048 among 8192 positions. -/
abbrev recPos (k : Fin 4) (j : Fin 2048) : Fin 8192 := Cert.Lib.blockEquiv 4 2048 (by decide) (by decide) (k, j)
/-- Position j of block k of 2048 among 4096 positions. -/
abbrev extPos (k : Fin 2) (j : Fin 2048) : Fin 4096 := Cert.Lib.blockEquiv 2 2048 (by decide) (by decide) (k, j)

theorem recPos_val (k : Fin 4) (j : Fin 2048) : (recPos k j).val = k.val * 2048 + j.val := rfl
theorem extPos_val (k : Fin 2) (j : Fin 2048) : (extPos k j).val = k.val * 2048 + j.val := rfl

theorem six_steps (f : Fin 8192 → EReal) (g : Fin 4096 → EReal) :
    (((((0 + ∑ j, f (recPos 0 j)) + ∑ j, f (recPos 1 j)) + ∑ j, f (recPos 2 j)) + ∑ j, f (recPos 3 j))
        + ∑ j, g (extPos 0 j)) + ∑ j, g (extPos 1 j)
      = ∑ k, f k + ∑ k, g k := by
  rw [Cert.Lib.sum_blocks 4 2048 (by decide) (by decide) f, Cert.Lib.sum_blocks 2 2048 (by decide) (by decide) g,
    Fin.sum_univ_four, Fin.sum_univ_two, zero_add]
  simp only [add_assoc]

end Cert.KernelIdeal.Snn

end
-- ==== Proof.Ideal.FinalPotential.lean ====
/-
  The new membrane potential after the run. The last step of column tile n stores, at entry (a, q), the potential
  update of the potential and the adaptation at (a, 1024 n + q) and of the finished accumulator at (a, q). That
  accumulator is the reference's input current at (a, 1024 n + q): its six block sums are, term by term, the blocks
  of the reference's sum over the 8192 recurrent positions of the last delay row times the recurrent weights and
  of its sum over the 4096 external positions of the external spikes times the external weights.
-/
import proofs.«106548_j23527830848088_2_alg».proof.Proof.Ideal.Blocks
import proofs.«106548_j23527830848088_2_alg».proof.Proof.Ideal.Scalars
import proofs.«106548_j23527830848088_2_alg».proof.Proof.Ideal.Regroup

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The four contracted arrays as the region finds them, as plain functions of their indices. -/
abbrev delayArr (c : Dev nD) : Cert.ReferenceIdeal.S8x16x8192.Idx → Ideal .f32 := V m c main_arg2
abbrev extArr (c : Dev nD) : Cert.ReferenceIdeal.S16x4096.Idx → Ideal .f32 := V m c main_arg3
abbrev recW (c : Dev nD) : Cert.ReferenceIdeal.S8192x8192.Idx → Ideal .f32 := V m c main_arg4
abbrev extW (c : Dev nD) : Cert.ReferenceIdeal.S4096x8192.Idx → Ideal .f32 := V m c main_arg5

/-- The reference's new potential, as the potential result's array. -/
def refPotential (c : Dev nD) : Buf (Elt Ideal) ((cfg0.win 8).arr.view.loc (c : Thread nD τ)) :=
  Cert.ReferenceIdeal.Read.val_main_v21 (F := Ideal) (V m c main_arg0) (V m c main_arg1) (V m c main_arg2) (V m c main_arg3) (V m c main_arg4) (V m c main_arg5)

set_option maxHeartbeats 1000000 in
/-- The finished accumulator of tile n at (a, q) is the reference's input current at (a, 1024 n + q). -/
theorem current_eq (c : Dev nD) (n : Fin 8) (a : Fin 16) (q : Fin 1024) (i : Cert.ReferenceIdeal.S16x8192.Idx)
    (h0 : (i 0).val = a.val) (h1 : (i 1).val = n.val * 1024 + q.val) :
    accAt m c (pt n 5 (by omega)).val (pt n 5 (by omega)).isLt (ix2 a q)
      = Cert.ReferenceIdeal.Read.val_main_v13 (F := Ideal) (V m c main_arg2) (V m c main_arg3) (V m c main_arg4) (V m c main_arg5) i := by
  rw [acc_tile_apply, Cert.ReferenceIdeal.Read.val_main_v13_apply, Cert.ReferenceIdeal.Read.val_main_v11_apply, Cert.ReferenceIdeal.Read.val_main_v12_apply]
  have ha : a.val < 16 := a.isLt
  have hrec : ∀ (kk : Fin 4), (∑ j : Fin 2048, rowBlk m c (pt n kk.val (by omega)) (ix3 (0 : Fin 1) a j) * recBlk m c (pt n kk.val (by omega)) (ix2 j q))
      = ∑ j : Fin 2048, (Cert.ReferenceIdeal.Read.val_main_v10 (F := Ideal) (delayArr m c) (Cert.ReferenceIdeal.Read.lidx_main_v11 i (recPos kk j)) * recW m c (Cert.ReferenceIdeal.Read.ridx_main_v11 i (recPos kk j))) := by
    intro kk
    refine Finset.sum_congr rfl fun j _ => ?_
    have hk : kk.val < 4 := kk.isLt
    have hm : (pt n kk.val (by omega)).val % 6 = kk.val := pt_mod _ _ _
    have hd : (pt n kk.val (by omega)).val / 6 = n.val := pt_div _ _ _
    have hj : j.val < 2048 := j.isLt
    congr 1
    · rw [Cert.ReferenceIdeal.Read.val_main_v10_apply, Cert.ReferenceIdeal.Read.val_main_v9_apply]
      refine blk0_apply m c _ 0 a j _ ?_ ?_ ?_
      · rfl
      · show ((i 0).val * 8192 + (recPos kk j).val) / 8192 % 16 = a.val
        rw [recPos_val, h0]; omega
      · show ((i 0).val * 8192 + (recPos kk j).val) % 8192 = min ((pt n kk.val (by omega)).val % 6) 3 * 2048 + j.val
        rw [recPos_val, h0, hm]; omega
    · refine blk1_apply m c _ j q _ ?_ ?_
      · show (recPos kk j).val = min ((pt n kk.val (by omega)).val % 6) 3 * 2048 + j.val
        rw [recPos_val, hm]; omega
      · show (i 1).val = (pt n kk.val (by omega)).val / 6 * 1024 + q.val
        rw [hd, h1]
  have hext : ∀ (e : Fin 2), (∑ j : Fin 2048, extBlk m c (pt n (4 + e.val) (by omega)) (ix2 a j) * wextBlk m c (pt n (4 + e.val) (by omega)) (ix2 j q))
      = ∑ j : Fin 2048, (extArr m c (Cert.ReferenceIdeal.Read.lidx_main_v12 i (extPos e j)) * extW m c (Cert.ReferenceIdeal.Read.ridx_main_v12 i (extPos e j))) := by
    intro e
    refine Finset.sum_congr rfl fun j _ => ?_
    have he : e.val < 2 := e.isLt
    have hm : (pt n (4 + e.val) (by omega)).val % 6 = 4 + e.val := pt_mod _ _ _
    have hd : (pt n (4 + e.val) (by omega)).val / 6 = n.val := pt_div _ _ _
    have hj : j.val < 2048 := j.isLt
    congr 1
    · refine blk2_apply m c _ a j _ ?_ ?_
      · exact h0
      · show (extPos e j).val = ((pt n (4 + e.val) (by omega)).val % 6 - 4) * 2048 + j.val
        rw [extPos_val, hm]; omega
    · refine blk3_apply m c _ j q _ ?_ ?_
      · show (extPos e j).val = ((pt n (4 + e.val) (by omega)).val % 6 - 4) * 2048 + j.val
        rw [extPos_val, hm]; omega
      · show (i 1).val = (pt n (4 + e.val) (by omega)).val / 6 * 1024 + q.val
        rw [hd, h1]
  refine Eq.trans ?_ (six_steps
    (fun k => Cert.ReferenceIdeal.Read.val_main_v10 (F := Ideal) (delayArr m c) (Cert.ReferenceIdeal.Read.lidx_main_v11 i k) * recW m c (Cert.ReferenceIdeal.Read.ridx_main_v11 i k))
    (fun k => extArr m c (Cert.ReferenceIdeal.Read.lidx_main_v12 i k) * extW m c (Cert.ReferenceIdeal.Read.ridx_main_v12 i k)))
  exact congrArg₂ (· + ·) (congrArg₂ (· + ·) (congrArg₂ (· + ·) (congrArg₂ (· + ·) (congrArg₂ (· + ·) (congrArg₂ (· + ·) rfl
    (hrec 0)) (hrec 1)) (hrec 2)) (hrec 3)) (hext 0)) (hext 1)

theorem flushed8_eq (c : Dev nD) (t : Fin cfg0.N) (h5 : t.val % 6 = 5) :
    (dats m 0 c).flushed 8 t = ((cfg0.win 8).blk t).view.read (Elt Ideal) (refPotential m c) := by
  show (cfg0.win 8).cut (grid0.coords t) ((dats m 0 c).after 8 t) = _
  rw [after_8]; unfold out8At; rw [dif_pos h5, View.read_writes_junk_eq_canon]
  rw [show View.canon (lastAt m c t h5 (accBefore m c t)).2.1
      = k0_pay6 (potBlk m c t) (adaBlk m c t) (k0_pay3 (accBefore m c t) (extBlk m c t) (wextBlk m c t)) from by apply last_out8]
  rw [← acc_last m c t h5]
  funext y
  show k0_pay6 (F := Ideal) (potBlk m c t) (adaBlk m c t) (accAt m c t.val t.isLt) y = refPotential m c (((cfg0.win 8).blk t).view.emb y)
  rw [potential_apply]; unfold refPotential; rw [ref_potential_apply]
  obtain ⟨e0, e1⟩ := emb8_val t y
  rw [show potBlk m c t y = V m c main_arg0 (((cfg0.win 8).blk t).view.emb y) from blk4_apply m c t y _ e0 e1,
    show adaBlk m c t y = V m c main_arg1 (((cfg0.win 8).blk t).view.emb y) from blk5_apply m c t y _ e0 e1]
  refine congrArg (potential _ _) ?_
  obtain ⟨n, hn⟩ : ∃ n : Fin 8, t = pt n 5 (by decide) :=
    ⟨⟨t.val / 6, by have h48 : t.val < 48 := lt_of_lt_of_eq t.isLt N_0; omega⟩, Fin.ext (by rw [pt_val]; show t.val = 6 * (t.val / 6) + 5; omega)⟩
  subst hn
  obtain ⟨a, q, rfl⟩ : ∃ (a : Fin 16) (q : Fin 1024), y = ix2 a q := ⟨y 0, y 1, eq_ix2 y⟩
  refine current_eq m c n a q _ e0 ?_
  rw [e1, pt_div]

theorem mem_blk8 (t : Fin cfg0.N) (i : S16x8192.Idx) :
    i ∈ ((cfg0.win 8).blk t).view.set ↔ ∀ a : Fin 2, win0_8.index t a * S16x1024.size a ≤ (i a).val ∧ (i a).val < win0_8.index t a * S16x1024.size a + S16x1024.size a := by
  show i ∈ ((View.whole main_v0_1).slice (win0_8.rect t)).set ↔ _
  rw [View.set_slice_whole, Rect.mem_set_unit]
  exact Iff.rfl

/-- Every entry is in the block of its column tile's last step. -/
theorem cover8 (i : S16x8192.Idx) : ∃ t : Fin cfg0.N, (cfg0.win 8).flush t = true ∧ i ∈ ((cfg0.win 8).blk t).view.set := by
  have hi0 : (i 0).val < 16 := (i 0).isLt
  have hi1 : (i 1).val < 8192 := (i 1).isLt
  refine ⟨pt ⟨(i 1).val / 1024, by omega⟩ 5 (by omega), (flush0_8 _).mpr (pt_mod _ 5 _), ?_⟩
  rw [mem_blk8]
  obtain ⟨e0, e1⟩ := idx_8 (pt ⟨(i 1).val / 1024, by omega⟩ 5 (by omega))
  have e1' : win0_8.index (pt ⟨(i 1).val / 1024, by omega⟩ 5 (by omega)) (1 : Fin 2) = (i 1).val / 1024 := e1.trans (pt_div _ 5 _)
  intro a
  match a with
  | ⟨0, _⟩ =>
    show win0_8.index (pt ⟨(i 1).val / 1024, by omega⟩ 5 (by omega)) (0 : Fin 2) * 16 ≤ (i 0).val ∧ (i 0).val < win0_8.index (pt ⟨(i 1).val / 1024, by omega⟩ 5 (by omega)) (0 : Fin 2) * 16 + 16
    omega
  | ⟨1, _⟩ =>
    show win0_8.index (pt ⟨(i 1).val / 1024, by omega⟩ 5 (by omega)) (1 : Fin 2) * 1024 ≤ (i 1).val ∧ (i 1).val < win0_8.index (pt ⟨(i 1).val / 1024, by omega⟩ 5 (by omega)) (1 : Fin 2) * 1024 + 1024
    omega

/-- The potential array after the run is the reference's. -/
theorem final8 (c : Dev nD) : (dats m 0 c).arrAt 8 cfg0.N = refPotential m c :=
  (dats m 0 c).arrAt_eq_of_cover 8 (refPotential m c) (fun t hf => flushed8_eq m c t ((flush0_8 t).mp hf)) cover8

end Cert.KernelIdeal.Snn

end
-- ==== Proof.Ideal.FinalDelay.lean ====
/-
  The delay buffer after the run. The last step of column tile n stores the block in two pieces: slot 0 the
  spikes, slots 1..7 the old block's slots 0..6. The reference joins the spikes, as one slot, to slots 0..6 of
  the old buffer: entry (0, a, b) is the spike at (a, b) and entry (s, a, b) for s ≥ 1 the old entry (s - 1, a, b).
  At b = 1024 n + q these are the block's two pieces, and the eight last steps' blocks cover the 8192 columns.
-/
import proofs.«106548_j23527830848088_2_alg».proof.Proof.Ideal.Blocks
import proofs.«106548_j23527830848088_2_alg».proof.Proof.Ideal.Scalars

set_option maxRecDepth 16384

noncomputable section

namespace Cert.KernelIdeal.Snn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The reference's shifted delay buffer, as the delay result's array. -/
def refDelay (c : Dev nD) : Buf (Elt Ideal) ((cfg0.win 10).arr.view.loc (c : Thread nD τ)) :=
  Cert.ReferenceIdeal.Read.val_main_v24 (F := Ideal) (V m c main_arg0) (V m c main_arg1) (V m c main_arg2)

/-- The two pieces a last step leaves in the delay block. -/
abbrev delayPieces (c : Dev nD) (t : Fin cfg0.N) : List (View.Piece (Elt Ideal) S8x16x1024 .f32) :=
  [(⟨Rect.unit ![1, 0, 0] S7x16x1024.size inb_S8x16x1024_S7x16x1024_1_0_0,
      View.ld (delayBlk m c t) (Rect.unit ![0, 0, 0] S7x16x1024.size inb_S8x16x1024_S7x16x1024_0_0_0)⟩ : View.Piece (Elt Ideal) S8x16x1024 .f32),
    ⟨Rect.unit ![0, 0, 0] S1x16x1024.size inb_S8x16x1024_S1x16x1024_0_0_0, k0_pay7 (F := Ideal) (potBlk m c t) (adaBlk m c t)⟩]

/-- An index in slot 0 is outside the seven slots the first piece fills. -/
theorem slot0_not_shifted (s : Fin 8) (a : Fin 16) (q : Fin 1024) (hs : s.val = 0) :
    (ix3 s a q : S8x16x1024.Idx) ∉ (Rect.unit (s := S8x16x1024) ![1, 0, 0] S7x16x1024.size inb_S8x16x1024_S7x16x1024_1_0_0).set := by
  rw [Rect.mem_set_unit]
  intro h
  have h0 := (h 0).1
  have : 1 ≤ s.val := h0
  omega

/-- An index in slot 0 is the second piece's rectangle at (0, a, q). -/
theorem slot0_emb (s : Fin 8) (a : Fin 16) (q : Fin 1024) (hs : s.val = 0) :
    (ix3 s a q : S8x16x1024.Idx) = (Rect.unit (s := S8x16x1024) ![0, 0, 0] S1x16x1024.size inb_S8x16x1024_S1x16x1024_0_0_0).emb (ix3 (0 : Fin 1) a q) :=
  funext fun ax => Fin.ext (by
    match ax with
    | ⟨0, _⟩ => show s.val = 0 + 1 * 0; omega
    | ⟨1, _⟩ => show a.val = 0 + 1 * a.val; omega
    | ⟨2, _⟩ => show q.val = 0 + 1 * q.val; omega)

/-- In slot 0 the first piece does not reach: what is there is the second piece's. -/
theorem slot0_second (c : Dev nD) (t : Fin cfg0.N) (s : Fin 8) (a : Fin 16) (q : Fin 1024) (hs : s.val = 0) :
    View.canon (delayPieces m c t) (ix3 s a q) = View.canon [(⟨Rect.unit ![0, 0, 0] S1x16x1024.size inb_S8x16x1024_S1x16x1024_0_0_0, k0_pay7 (F := Ideal) (potBlk m c t) (adaBlk m c t)⟩ : View.Piece (Elt Ideal) S8x16x1024 .f32)] (ix3 s a q) :=
  View.canon_cons_of_not_mem _ _ (slot0_not_shifted s a q hs)

/-- Under a piece's rectangle the contents are the piece's payload. -/
theorem slot0_payload (c : Dev nD) (t : Fin cfg0.N) (a : Fin 16) (q : Fin 1024) :
    View.canon [(⟨Rect.unit ![0, 0, 0] S1x16x1024.size inb_S8x16x1024_S1x16x1024_0_0_0, k0_pay7 (F := Ideal) (potBlk m c t) (adaBlk m c t)⟩ : View.Piece (Elt Ideal) S8x16x1024 .f32)] ((Rect.unit (s := S8x16x1024) ![0, 0, 0] S1x16x1024.size inb_S8x16x1024_S1x16x1024_0_0_0).emb (ix3 (0 : Fin 1) a q))
      = k0_pay7 (F := Ideal) (potBlk m c t) (adaBlk m c t) (ix3 (0 : Fin 1) a q) :=
  View.canon_cons_emb _ _ _ _

/-- The payload stored into slot 0 is the spike of the tile's potential and adaptation. -/
theorem slot0_spike (c : Dev nD) (t : Fin cfg0.N) (a : Fin 16) (q : Fin 1024) :
    k0_pay7 (F := Ideal) (potBlk m c t) (adaBlk m c t) (ix3 (0 : Fin 1) a q) = spike (potBlk m c t (ix2 a q)) (adaBlk m c t (ix2 a q)) :=
  (slot0_apply _ _ 0 a q).trans (spikes_apply _ _ _)

/-- Slot 0 of the block: the spikes. -/
theorem pieces_slot0 (c : Dev nD) (t : Fin cfg0.N) (s : Fin 8) (a : Fin 16) (q : Fin 1024) (hs : s.val = 0) :
    View.canon (delayPieces m c t) (ix3 s a q) = spike (potBlk m c t (ix2 a q)) (adaBlk m c t (ix2 a q)) :=
  (slot0_second m c t s a q hs).trans
    ((congrArg (View.canon [(⟨Rect.unit ![0, 0, 0] S1x16x1024.size inb_S8x16x1024_S1x16x1024_0_0_0, k0_pay7 (F := Ideal) (potBlk m c t) (adaBlk m c t)⟩ : View.Piece (Elt Ideal) S8x16x1024 .f32)]) (slot0_emb s a q hs)).trans
      ((slot0_payload m c t a q).trans (slot0_spike m c t a q)))

/-- Slot s ≥ 1 of the block: slot s - 1 of the old block. -/
theorem pieces_slot_pos (c : Dev nD) (t : Fin cfg0.N) (s : Fin 8) (a : Fin 16) (q : Fin 1024) (hs : s.val ≠ 0) :
    View.canon (delayPieces m c t) (ix3 s a q) = delayBlk m c t (ix3 (⟨s.val - 1, by have := s.isLt; omega⟩ : Fin 8) a q) := by
  have hemb : (ix3 s a q : S8x16x1024.Idx) = (Rect.unit (s := S8x16x1024) ![1, 0, 0] S7x16x1024.size inb_S8x16x1024_S7x16x1024_1_0_0).emb
      (ix3 (⟨s.val - 1, by have := s.isLt; omega⟩ : Fin 7) a q) :=
    funext fun ax => Fin.ext (by
      match ax with
      | ⟨0, _⟩ => show s.val = 1 + 1 * (s.val - 1); omega
      | ⟨1, _⟩ => show a.val = 0 + 1 * a.val; omega
      | ⟨2, _⟩ => show q.val = 0 + 1 * q.val; omega)
  rw [hemb, View.canon_cons_emb]
  show delayBlk m c t ((Rect.unit (s := S8x16x1024) ![0, 0, 0] S7x16x1024.size inb_S8x16x1024_S7x16x1024_0_0_0).idx (ix3 (⟨s.val - 1, by have := s.isLt; omega⟩ : Fin 7) a q)) = _
  refine read_congr _ _ _ fun ax => ?_
  match ax with
  | ⟨0, _⟩ => show 0 + 1 * (s.val - 1) = s.val - 1; omega
  | ⟨1, _⟩ => show 0 + 1 * a.val = a.val; omega
  | ⟨2, _⟩ => show 0 + 1 * q.val = q.val; omega

/-- The reference's joined buffer at slot 0: the spike. -/
theorem ref_slot0 (x0 x1 : Cert.ReferenceIdeal.S16x8192.Idx → Ideal .f32) (x2 : Cert.ReferenceIdeal.S8x16x8192.Idx → Ideal .f32)
    (J : Cert.ReferenceIdeal.S8x16x8192.Idx) (i : Cert.ReferenceIdeal.S16x8192.Idx)
    (h0 : (J 0).val = 0) (h1 : (i 0).val = (J 1).val) (h2 : (i 1).val = (J 2).val) :
    Cert.ReferenceIdeal.Read.val_main_v24 (F := Ideal) x0 x1 x2 J = spike (x0 i) (x1 i) := by
  unfold Cert.ReferenceIdeal.Read.val_main_v24
  rw [concatenate_pair_apply_left (t := Cert.ReferenceIdeal.S8x16x8192) (s₁ := Cert.ReferenceIdeal.S1x16x8192) (s₂ := Cert.ReferenceIdeal.S7x16x8192) (0 : Fin 3) _ _ _ J rfl
    (ix3 (0 : Fin 1) (⟨(J 1).val, (J 1).isLt⟩ : Fin 16) (⟨(J 2).val, (J 2).isLt⟩ : Fin 8192))
    (fun b => by
      match b with
      | ⟨0, _⟩ => exact h0.symm
      | ⟨1, _⟩ => rfl
      | ⟨2, _⟩ => rfl)]
  rw [Cert.ReferenceIdeal.Read.val_main_v22_apply, ref_spikes_apply]
  have hi : Cert.ReferenceIdeal.Read.idx_main_v22 (ix3 (0 : Fin 1) (⟨(J 1).val, (J 1).isLt⟩ : Fin 16) (⟨(J 2).val, (J 2).isLt⟩ : Fin 8192)) = i :=
    funext fun ax => Fin.ext (by
      match ax with
      | ⟨0, _⟩ => exact h1.symm
      | ⟨1, _⟩ => exact h2.symm)
  rw [hi]

/-- The reference's joined buffer at slot s ≥ 1: the old buffer's slot s - 1. -/
theorem ref_slot_pos (x0 x1 : Cert.ReferenceIdeal.S16x8192.Idx → Ideal .f32) (x2 : Cert.ReferenceIdeal.S8x16x8192.Idx → Ideal .f32)
    (J I : Cert.ReferenceIdeal.S8x16x8192.Idx)
    (h0 : (I 0).val + 1 = (J 0).val) (h1 : (I 1).val = (J 1).val) (h2 : (I 2).val = (J 2).val) :
    Cert.ReferenceIdeal.Read.val_main_v24 (F := Ideal) x0 x1 x2 J = x2 I := by
  unfold Cert.ReferenceIdeal.Read.val_main_v24
  have hJ0 : (J 0).val < 8 := (J 0).isLt
  rw [concatenate_pair_apply_right (t := Cert.ReferenceIdeal.S8x16x8192) (s₁ := Cert.ReferenceIdeal.S1x16x8192) (s₂ := Cert.ReferenceIdeal.S7x16x8192) (0 : Fin 3) _ _ _ J rfl rfl
    (ix3 (⟨(J 0).val - 1, by omega⟩ : Fin 7) (⟨(J 1).val, (J 1).isLt⟩ : Fin 16) (⟨(J 2).val, (J 2).isLt⟩ : Fin 8192))
    (fun b hb => by
      match b with
      | ⟨0, _⟩ => exact absurd rfl hb
      | ⟨1, _⟩ => rfl
      | ⟨2, _⟩ => rfl)
    (by show (J 0).val - 1 + 1 = (J 0).val; omega)]
  rw [Cert.ReferenceIdeal.Read.val_main_v23_apply]
  refine read_congr _ _ _ fun ax => ?_
  match ax with
  | ⟨0, _⟩ => show (J 0).val - 1 = (I 0).val; omega
  | ⟨1, _⟩ => exact h1.symm
  | ⟨2, _⟩ => exact h2.symm

theorem flushed10_eq (c : Dev nD) (t : Fin cfg0.N) (h5 : t.val % 6 = 5) :
    (dats m 0 c).flushed 10 t = ((cfg0.win 10).blk t).view.read (Elt Ideal) (refDelay m c) := by
  show (cfg0.win 10).cut (grid0.coords t) ((dats m 0 c).after 10 t) = _
  rw [after_10]; unfold out10At; rw [dif_pos h5, View.read_writes_junk_eq_canon]
  rw [show View.canon (lastAt m c t h5 (accBefore m c t)).2.2.2.1 = View.canon (delayPieces m c t) from by apply last_out10]
  funext y
  show View.canon (delayPieces m c t) y = refDelay m c (((cfg0.win 10).blk t).view.emb y)
  obtain ⟨s, a, q, rfl⟩ : ∃ (s : Fin 8) (a : Fin 16) (q : Fin 1024), y = ix3 s a q := ⟨y 0, y 1, y 2, eq_ix3 y⟩
  obtain ⟨e0, e1, e2⟩ := emb10_val t (ix3 s a q)
  unfold refDelay
  by_cases hs : s.val = 0
  · rw [pieces_slot0 m c t s a q hs]
    have hi0 : a.val < 16 := a.isLt
    have hq : q.val < 1024 := q.isLt
    have h48 : t.val < 48 := lt_of_lt_of_eq t.isLt N_0
    rw [ref_slot0 _ _ _ (((cfg0.win 10).blk t).view.emb (ix3 s a q))
      (ix2 (⟨a.val, hi0⟩ : Fin 16) (⟨t.val / 6 * 1024 + q.val, by omega⟩ : Fin 8192))
      (e0.trans hs) e1.symm e2.symm]
    rw [show potBlk m c t (ix2 a q) = V m c main_arg0 (ix2 (⟨a.val, hi0⟩ : Fin 16) (⟨t.val / 6 * 1024 + q.val, by omega⟩ : Fin 8192)) from
        blk4_apply m c t (ix2 a q) _ rfl rfl,
      show adaBlk m c t (ix2 a q) = V m c main_arg1 (ix2 (⟨a.val, hi0⟩ : Fin 16) (⟨t.val / 6 * 1024 + q.val, by omega⟩ : Fin 8192)) from
        blk5_apply m c t (ix2 a q) _ rfl rfl]
  · rw [pieces_slot_pos m c t s a q hs]
    have hs8 : s.val < 8 := s.isLt
    have hq : q.val < 1024 := q.isLt
    have h48 : t.val < 48 := lt_of_lt_of_eq t.isLt N_0
    rw [ref_slot_pos _ _ _ (((cfg0.win 10).blk t).view.emb (ix3 s a q))
      (ix3 (⟨s.val - 1, by omega⟩ : Fin 8) a (⟨t.val / 6 * 1024 + q.val, by omega⟩ : Fin 8192))
      (by show s.val - 1 + 1 = _; rw [e0]; show s.val - 1 + 1 = s.val; omega) e1.symm e2.symm]
    exact blk6_apply m c t (ix3 (⟨s.val - 1, by omega⟩ : Fin 8) a q) _ rfl rfl rfl

theorem mem_blk10 (t : Fin cfg0.N) (i : S8x16x8192.Idx) :
    i ∈ ((cfg0.win 10).blk t).view.set ↔ ∀ a : Fin 3, win0_10.index t a * S8x16x1024.size a ≤ (i a).val ∧ (i a).val < win0_10.index t a * S8x16x1024.size a + S8x16x1024.size a := by
  show i ∈ ((View.whole main_v0_3).slice (win0_10.rect t)).set ↔ _
  rw [View.set_slice_whole, Rect.mem_set_unit]
  exact Iff.rfl

/-- Every entry is in the block of its column tile's last step. -/
theorem cover10 (i : S8x16x8192.Idx) : ∃ t : Fin cfg0.N, (cfg0.win 10).flush t = true ∧ i ∈ ((cfg0.win 10).blk t).view.set := by
  have hi0 : (i 0).val < 8 := (i 0).isLt
  have hi1 : (i 1).val < 16 := (i 1).isLt
  have hi2 : (i 2).val < 8192 := (i 2).isLt
  refine ⟨pt ⟨(i 2).val / 1024, by omega⟩ 5 (by omega), (flush0_10 _).mpr (pt_mod _ 5 _), ?_⟩
  rw [mem_blk10]
  obtain ⟨e0, e1, e2⟩ := idx_10 (pt ⟨(i 2).val / 1024, by omega⟩ 5 (by omega))
  have e2' : win0_10.index (pt ⟨(i 2).val / 1024, by omega⟩ 5 (by omega)) (2 : Fin 3) = (i 2).val / 1024 := e2.trans (pt_div _ 5 _)
  intro a
  match a with
  | ⟨0, _⟩ =>
    show win0_10.index (pt ⟨(i 2).val / 1024, by omega⟩ 5 (by omega)) (0 : Fin 3) * 8 ≤ (i 0).val ∧ (i 0).val < win0_10.index (pt ⟨(i 2).val / 1024, by omega⟩ 5 (by omega)) (0 : Fin 3) * 8 + 8
    omega
  | ⟨1, _⟩ =>
    show win0_10.index (pt ⟨(i 2).val / 1024, by omega⟩ 5 (by omega)) (1 : Fin 3) * 16 ≤ (i 1).val ∧ (i 1).val < win0_10.index (pt ⟨(i 2).val / 1024, by omega⟩ 5 (by omega)) (1 : Fin 3) * 16 + 16
    omega
  | ⟨2, _⟩ =>
    show win0_10.index (pt ⟨(i 2).val / 1024, by omega⟩ 5 (by omega)) (2 : Fin 3) * 1024 ≤ (i 2).val ∧ (i 2).val < win0_10.index (pt ⟨(i 2).val / 1024, by omega⟩ 5 (by omega)) (2 : Fin 3) * 1024 + 1024
    omega

/-- The delay buffer after the run is the reference's. -/
theorem final10 (c : Dev nD) : (dats m 0 c).arrAt 10 cfg0.N = refDelay m c :=
  (dats m 0 c).arrAt_eq_of_cover 10 (refDelay m c) (fun t hf => flushed10_eq m c t ((flush0_10 t).mp hf)) cover10

end Cert.KernelIdeal.Snn

end
-- ==== Proof.lean ====
/-
  One step of a spiking network, 16 batch rows by 8192 neurons: from the membrane potentials V, the adaptation a,
  a delay buffer Xd of 8 slots, external spikes Xext and two weight matrices it produces the spikes
  X = [V ≥ 1 + 1.8 a], the new adaptation ρ a + X, the new potential α V (1 - X) + (1 - α) I with input current
  I = Xd[7] · W_int + Xext · W_ext, and the delay buffer shifted by one slot with X entering slot 0.

  The kernel works one column tile of 1024 neurons at a time, in six steps: it clears an accumulator, adds four
  products over consecutive blocks of 2048 recurrent positions and two over consecutive blocks of 2048 external
  positions, and at the sixth step computes and stores the tile's four results. The reference computes the two
  contractions whole. Over the extended reals the two agree entry by entry: a sum over consecutive indices is the
  sum of its blocks' sums, and addition is commutative and associative with 0 neutral whether or not terms are
  infinite, so the accumulator is the reference's current; the pointwise arithmetic is the same expression of the
  same constants on both sides; the kernel reads the comparison's bit, widened, as a signed integer and the
  reference reads it unsigned, and a bit is 0 or 1 either way; the delay block's two stored pieces are the two
  operands of the reference's concatenation. No finiteness of the inputs is used.

  Both printed kernels run to the end without fault and leave their arguments unchanged: the delay buffer is
  handed to two operand windows, both only read, each holding half of it; the accumulator is carried from step to
  step as the loop's invariant; the result windows are idle except at a tile's last step, which fills them and is
  the only step that writes them back. The ideal pass rewrote nothing, so the idealization is the kernel's own
  text read over the extended reals.
-/
import proofs.«106548_j23527830848088_2_alg».proof.Defs
import proofs.«106548_j23527830848088_2_alg».proof.Proof.Gen.Kernel
import proofs.«106548_j23527830848088_2_alg».proof.Proof.Gen.KernelIdeal
import proofs.«106548_j23527830848088_2_alg».proof.Proof.Gen.ReferenceIdeal
import proofs.«106548_j23527830848088_2_alg».proof.Proof.Gen.Pre_finite_inputs
import proofs.«106548_j23527830848088_2_alg».proof.Proof.Gen.ReferenceIdeal.Run
import proofs.«106548_j23527830848088_2_alg».proof.Proof.Gen.ReferenceIdeal.Read
import proofs.«106548_j23527830848088_2_alg».proof.Proof.Word.Run
import proofs.«106548_j23527830848088_2_alg».proof.Proof.Ideal.Run
import proofs.«106548_j23527830848088_2_alg».proof.Proof.Ideal.FinalSpikes
import proofs.«106548_j23527830848088_2_alg».proof.Proof.Ideal.FinalPotential
import proofs.«106548_j23527830848088_2_alg».proof.Proof.Ideal.FinalDelay

noncomputable section

namespace Cert.Proof

open Idealize.ShloMosaic Idealize.ShloMosaic.TcCoe Idealize.SL.Sem

theorem frame_word : Cert.frame_Kernel (hKernel := Cert.Kernel.Gen.facts) (hPre_finite_inputs := Cert.Pre_finite_inputs.Gen.facts) :=
  fun m ρ _ => Cert.Kernel.Snn.frame m ρ

theorem frame_ideal : Cert.frame_KernelIdeal (hKernelIdeal := Cert.KernelIdeal.Gen.facts) (hPre_finite_inputs := Cert.Pre_finite_inputs.Gen.facts) :=
  fun m ρ _ => Cert.KernelIdeal.Snn.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

open Cert.KernelIdeal Cert.KernelIdeal.Snn in
/-- The two idealized programs, from memories agreeing on the arguments, end with equal results: the kernel's four
    result arrays after its run are the reference's four stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (dats m 0 c).arrAt 7 cfg0.N, fun c => (dats m 0 c).arrAt 8 cfg0.N, fun c => (dats m 0 c).arrAt 9 cfg0.N,
    fun c => (dats m 0 c).arrAt 10 cfg0.N, ?_, ?_⟩
  · exact (θ_run Cert.KernelIdeal.defs _ _).mono (fun r h c =>
      ⟨h c 7, h c 8, h c 9, h c 10,
       (h c 4).trans ((dats m 0 c).arrAt_in 4 rfl _), (h c 5).trans ((dats m 0 c).arrAt_in 5 rfl _),
       (h c 0).trans ((dats m 0 c).arrAt_in 0 rfl _), (h c 2).trans ((dats m 0 c).arrAt_in 2 rfl _),
       (h c 1).trans ((dats m 0 c).arrAt_in 1 rfl _), (h c 3).trans ((dats m 0 c).arrAt_in 3 rfl _)⟩) (run_main m ρ)
  · refine (θ_run Cert.ReferenceIdeal.defs _ _).mono (fun r h c => ⟨?_, ?_, ?_, ?_, (h c).2.2.2.2⟩)
      (Cert.ReferenceIdeal.Value.run (F := Ideal) m' ρ')
    · refine (h c).1.trans ?_
      rw [(hagree c).1, (hagree c).2.1]
      exact (Cert.ReferenceIdeal.Read.val_main_v5_eq _ _).trans (final7 m c).symm
    · refine (h c).2.1.trans ?_
      rw [(hagree c).1, (hagree c).2.1, (hagree c).2.2.1, (hagree c).2.2.2.1, (hagree c).2.2.2.2.1, (hagree c).2.2.2.2.2]
      exact (Cert.ReferenceIdeal.Read.val_main_v21_eq _ _ _ _ _ _).trans (final8 m c).symm
    · refine (h c).2.2.1.trans ?_
      rw [(hagree c).1, (hagree c).2.1]
      exact (Cert.ReferenceIdeal.Read.val_main_v8_eq _ _).trans (final9 m c).symm
    · refine (h c).2.2.2.1.trans ?_
      rw [(hagree c).1, (hagree c).2.1, (hagree c).2.2.1]
      exact (Cert.ReferenceIdeal.Read.val_main_v24_eq _ _ _).trans (final10 m c).symm

theorem claim : Cert.Claim := ⟨Cert.Kernel.Gen.facts, Cert.KernelIdeal.Gen.facts, Cert.ReferenceIdeal.Gen.facts, Cert.Pre_finite_inputs.Gen.facts,
  frame_word, frame_ideal, frame_reference, trivial, algebraic⟩

end Cert.Proof

end
